-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x600000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S1x128 : Shape := ⟨2, ![1, 128]⟩
abbrev S1x64 : Shape := ⟨2, ![1, 64]⟩
abbrev S5000x128 : Shape := ⟨2, ![5000, 128]⟩
abbrev S5000x1 : Shape := ⟨2, ![5000, 1]⟩
abbrev S650000x128 : Shape := ⟨2, ![650000, 128]⟩
abbrev S50000x64 : Shape := ⟨2, ![50000, 64]⟩
abbrev S5000x64 : Shape := ⟨2, ![5000, 64]⟩
abbrev S650000x64 : Shape := ⟨2, ![650000, 64]⟩

abbrev nBuf : Space → Nat
  | .hbm => 61
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S50000, .i32⟩
  | .hbm, ⟨11, _⟩ => ⟨S650000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S1x128, .f32⟩
  | .hbm, ⟨29, _⟩ => ⟨S1x64, .f32⟩
  | .hbm, ⟨30, _⟩ => ⟨S50000x128, .bf16⟩
  | .hbm, ⟨31, _⟩ => ⟨S_, .i32⟩
  | .hbm, ⟨32, _⟩ => ⟨S650000, .i32⟩
  | .hbm, ⟨33, _⟩ => ⟨S650000, .i1⟩
  | .hbm, ⟨34, _⟩ => ⟨S_, .i32⟩
  | .hbm, ⟨35, _⟩ => ⟨S650000, .i32⟩
  | .hbm, ⟨36, _⟩ => ⟨S650000, .i32⟩
  | .hbm, ⟨37, _⟩ => ⟨S650000, .i32⟩
  | .hbm, ⟨38, _⟩ => ⟨S650000x1, .i32⟩
  | .hbm, ⟨39, _⟩ => ⟨S650000x128, .bf16⟩
  | .hbm, ⟨40, _⟩ => ⟨S650000x128, .f32⟩
  | .hbm, ⟨41, _⟩ => ⟨S_, .f32⟩
  | .hbm, ⟨42, _⟩ => ⟨S50000x128, .f32⟩
  | .hbm, ⟨43, _⟩ => ⟨S650000x1, .i32⟩
  | .hbm, ⟨44, _⟩ => ⟨S50000x128, .f32⟩
  | .hbm, ⟨45, _⟩ => ⟨S50000x64, .bf16⟩
  | .hbm, ⟨46, _⟩ => ⟨S_, .i32⟩
  | .hbm, ⟨47, _⟩ => ⟨S650000, .i32⟩
  | .hbm, ⟨48, _⟩ => ⟨S650000, .i1⟩
  | .hbm, ⟨49, _⟩ => ⟨S_, .i32⟩
  | .hbm, ⟨50, _⟩ => ⟨S650000, .i32⟩
  | .hbm, ⟨51, _⟩ => ⟨S650000, .i32⟩
  | .hbm, ⟨52, _⟩ => ⟨S650000, .i32⟩
  | .hbm, ⟨53, _⟩ => ⟨S650000x1, .i32⟩
  | .hbm, ⟨54, _⟩ => ⟨S650000x64, .bf16⟩
  | .hbm, ⟨55, _⟩ => ⟨S650000x64, .f32⟩
  | .hbm, ⟨56, _⟩ => ⟨S_, .f32⟩
  | .hbm, ⟨57, _⟩ => ⟨S50000x64, .f32⟩
  | .hbm, ⟨58, _⟩ => ⟨S650000x1, .i32⟩
  | .hbm, ⟨59, _⟩ => ⟨S50000x64, .f32⟩
  | .hbm, ⟨60, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .bf16⟩
  | .local _ .vmem, ⟨14, _⟩ => ⟨S5000x64, .bf16⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S50000_S50000x1 : S50000.ShapeCasts S50000x1
  shapeCasts_S128_S1x128 : S128.ShapeCasts S1x128
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S650000x1_S650000_n_0_0_1_wf : ScatterDims.WF S50000 S650000x1 S650000 [] [0] [0] 1
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x64_S5000x64_1_0_0_1_n_n_wf : DotDims.WF S5000x128 S128x64 S5000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .bf16 = 32 ∨ (Rect.block (s := S50000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S650000x64 : Shape := ⟨2, ![650000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S50000x128, .f32⟩
  | .hbm, ⟨11, _⟩ => ⟨S50000, .i32⟩
  | .hbm, ⟨12, _⟩ => ⟨S650000, .i32⟩
  | .hbm, ⟨13, _⟩ => ⟨S650000, .i32⟩
  | .hbm, ⟨14, _⟩ => ⟨S_, .f32⟩
  | .hbm, ⟨15, _⟩ => ⟨S650000, .f32⟩
  | .hbm, ⟨16, _⟩ => ⟨S_, .f32⟩
  | .hbm, ⟨17, _⟩ => ⟨S50000, .f32⟩
  | .hbm, ⟨18, _⟩ => ⟨S650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S650000, .i32⟩
  | .hbm, ⟨30, _⟩ => ⟨S650000, .i1⟩
  | .hbm, ⟨31, _⟩ => ⟨S_, .i32⟩
  | .hbm, ⟨32, _⟩ => ⟨S650000, .i32⟩
  | .hbm, ⟨33, _⟩ => ⟨S650000, .i32⟩
  | .hbm, ⟨34, _⟩ => ⟨S650000, .i32⟩
  | .hbm, ⟨35, _⟩ => ⟨S650000x1, .i32⟩
  | .hbm, ⟨36, _⟩ => ⟨S650000, .f32⟩
  | .hbm, ⟨37, _⟩ => ⟨S_, .i32⟩
  | .hbm, ⟨38, _⟩ => ⟨S650000, .i32⟩
  | .hbm, ⟨39, _⟩ => ⟨S650000, .i1⟩
  | .hbm, ⟨40, _⟩ => ⟨S_, .i32⟩
  | .hbm, ⟨41, _⟩ => ⟨S650000, .i32⟩
  | .hbm, ⟨42, _⟩ => ⟨S650000, .i32⟩
  | .hbm, ⟨43, _⟩ => ⟨S650000, .i32⟩
  | .hbm, ⟨44, _⟩ => ⟨S650000x1, .i32⟩
  | .hbm, ⟨45, _⟩ => ⟨S650000, .f32⟩
  | .hbm, ⟨46, _⟩ => ⟨S650000, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x1, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S50000x128, .f32⟩
  | .hbm, ⟨61, _⟩ => ⟨S650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S50000, .i32⟩
  | .hbm, ⟨71, _⟩ => ⟨S650000, .i32⟩
  | .hbm, ⟨72, _⟩ => ⟨S650000, .i32⟩
  | .hbm, ⟨73, _⟩ => ⟨S_, .f32⟩
  | .hbm, ⟨74, _⟩ => ⟨S650000, .f32⟩
  | .hbm, ⟨75, _⟩ => ⟨S_, .f32⟩
  | .hbm, ⟨76, _⟩ => ⟨S50000, .f32⟩
  | .hbm, ⟨77, _⟩ => ⟨S650000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S650000, .i32⟩
  | .hbm, ⟨89, _⟩ => ⟨S650000, .i1⟩
  | .hbm, ⟨90, _⟩ => ⟨S_, .i32⟩
  | .hbm, ⟨91, _⟩ => ⟨S650000, .i32⟩
  | .hbm, ⟨92, _⟩ => ⟨S650000, .i32⟩
  | .hbm, ⟨93, _⟩ => ⟨S650000, .i32⟩
  | .hbm, ⟨94, _⟩ => ⟨S650000x1, .i32⟩
  | .hbm, ⟨95, _⟩ => ⟨S650000, .f32⟩
  | .hbm, ⟨96, _⟩ => ⟨S_, .i32⟩
  | .hbm, ⟨97, _⟩ => ⟨S650000, .i32⟩
  | .hbm, ⟨98, _⟩ => ⟨S650000, .i1⟩
  | .hbm, ⟨99, _⟩ => ⟨S_, .i32⟩
  | .hbm, ⟨100, _⟩ => ⟨S650000, .i32⟩
  | .hbm, ⟨101, _⟩ => ⟨S650000, .i32⟩
  | .hbm, ⟨102, _⟩ => ⟨S650000, .i32⟩
  | .hbm, ⟨103, _⟩ => ⟨S650000x1, .i32⟩
  | .hbm, ⟨104, _⟩ => ⟨S650000, .f32⟩
  | .hbm, ⟨105, _⟩ => ⟨S650000, .f32⟩
  | .hbm, ⟨106, _⟩ => ⟨S_, .i32⟩
  | .hbm, ⟨107, _⟩ => ⟨S650000, .i32⟩
  | .hbm, ⟨108, _⟩ => ⟨S650000, .i1⟩
  | .hbm, ⟨109, _⟩ => ⟨S_, .i32⟩
  | .hbm, ⟨110, _⟩ => ⟨S650000, .i32⟩
  | .hbm, ⟨111, _⟩ => ⟨S650000, .i32⟩
  | .hbm, ⟨112, _⟩ => ⟨S650000, .i32⟩
  | .hbm, ⟨113, _⟩ => ⟨S650000x1, .i32⟩
  | .hbm, ⟨114, _⟩ => ⟨S650000x64, .f32⟩
  | .hbm, ⟨115, _⟩ => ⟨S650000x1, .f32⟩
  | .hbm, ⟨116, _⟩ => ⟨S650000x64, .f32⟩
  | .hbm, ⟨117, _⟩ => ⟨S650000x64, .f32⟩
  | .hbm, ⟨118, _⟩ => ⟨S_, .f32⟩
  | .hbm, ⟨119, _⟩ => ⟨S50000x64, .f32⟩
  | .hbm, ⟨120, _⟩ => ⟨S650000x1, .i32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

class Facts : Prop extends Facts₀ where

variable [Facts]
-- ==== Proof.KernelRun.lean ====
/-
  The kernel program's run with its result named.

  The program is five stretches of host operations around three grid regions. Every weakly fair execution terminates,
  nothing faulting, and at the end every unscoped buffer holds the last boundary's contents: the fold of the host
  stretches and of the regions' write-backs from the launch memory. Read at the result buffer, that is what the third
  region's pipeline leaves in its output array — the fold of its ten blocks' write-backs — and read at an argument it is
  the launch contents, since nothing writes an argument.
-/
import proofs.«171738_j23192823399146_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates without a fault; the result buffer ends at what the
    third region leaves in its output array (entered from the contents `V7`), and the six arguments end as launched. -/
theorem run : θ_run defs (onTc (τ := τ) (main (F := F))) ⟨m, fun _ => 0, ρ⟩ (fun r => ∀ c : Dev nD,
      r.2.mem ((c.tc : Thread nD τ).loc main_v42) = (dat2 (V7 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v42 (by decide))).trans (W8_arr m ρ c 3),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.KernelHostA.lean ====
/-
  The kernel program's buffers at the boundaries of its first region, as functions of the arguments.

  Before the first grid region the host computes, from the edge-index argument alone: the source words `r` and target words
  `c` of the edges (the two rows of the argument, each followed by the self-loops `0 … N−1`), the degree of every node (a
  scatter-add of ones at the target words), and its guarded inverse square root `where(deg > 0, rsqrt deg, 0)`, reshaped to
  a column. It also reshapes the two biases to rows. Nothing before the region touches the feature and weight arguments.
  The region's only write is its output array; every other buffer keeps its contents across it.
-/
import proofs.«171738_j23192823399146_2_alg».proof.Proof.Gen.KernelIdeal.Frame
import Idealize.ShloMosaic.Lib.StableHlo.Run
import Idealize.ShloMosaic.PureOps.Ideal

set_option maxRecDepth 16384

noncomputable section

namespace Cert.KernelIdeal.HostValue

open Idealize.ShloMosaic Idealize.ShloMosaic.TcCoe Idealize.SL.Sem Idealize.ShloMosaic.StableHlo Cert.KernelIdeal Cert.KernelIdeal.Gen

variable {F : FTy → Type} [FloatOps F]

/-! ## The shared host chains, as functions of the edge-index array -/

/-- The source words: row 0 of the edge index, then the self-loops. -/
def srcWords (x1 : IVec S2x600000 32) : IVec S650000 32 :=
  concatenate S650000 0
    [⟨S600000, shapeCast S600000 (extractStridedSlice S1x600000 ![0, 0] x1 slices_S2x600000_S1x600000_0_0) shapeCasts_S1x600000_S600000⟩,
     ⟨S50000, iotaInDim S50000 32 0⟩] concatenates_S600000_S50000_S650000_d0
/-- The target words: row 1 of the edge index, then the self-loops. -/
def tgtWords (x1 : IVec S2x600000 32) : IVec S650000 32 :=
  concatenate S650000 0
    [⟨S600000, shapeCast S600000 (extractStridedSlice S1x600000 ![1, 0] x1 slices_S2x600000_S1x600000_1_0) shapeCasts_S1x600000_S600000⟩,
     ⟨S50000, iotaInDim S50000 32 0⟩] concatenates_S600000_S50000_S650000_d0
/-- A word column wrapped as numpy indexing wraps it: a negative word gets the extent added. -/
def wrapCol (v : IVec S650000 32) : IVec S650000x1 32 :=
  broadcastInDim S650000x1 ![0] bcast_S650000_S650000x1_0
    (select (cmpi .slt v (broadcastInDim S650000 ![] bcast_S_S650000 (constantI S_ 32 0#32)))
      (addi v (broadcastInDim S650000 ![] bcast_S_S650000 (constantI S_ 32 50000#32))) v)
/-- A word column as it is. -/
def rawCol (v : IVec S650000 32) : IVec S650000x1 32 := broadcastInDim S650000x1 ![0] bcast_S650000_S650000x1_0 v
/-- The degree of every node: ones scatter-added at the target words. -/
def degree (x1 : IVec S2x600000 32) : FVec F S50000 .f32 :=
  Host.scatterAdd scatter_S50000_S650000x1_S650000_n_0_0_1
    (broadcastInDim S50000 ![] bcast_S_S50000 (constant (F := F) S_ .f32 0x00000000#32))
    (rawCol (tgtWords x1))
    (broadcastInDim S650000 ![] bcast_S_S650000 (constant (F := F) S_ .f32 0x3F800000#32))
/-- `where(deg > 0, rsqrt deg, 0)`. -/
def invSqrtDeg (x1 : IVec S2x600000 32) : FVec F S50000 .f32 :=
  select (cmpf .ogt (degree (F := F) x1) (broadcastInDim S50000 ![] bcast_S_S50000 (constant (F := F) S_ .f32 0x00000000#32)))
    (Host.rsqrt (degree (F := F) x1))
    (broadcastInDim S50000 ![] bcast_S_S50000 (constant (F := F) S_ .f32 0x00000000#32))
/-- The same as a column `[N, 1]`. -/
def invSqrtDegCol (x1 : IVec S2x600000 32) : FVec F S50000x1 .f32 :=
  shapeCast S50000x1 (invSqrtDeg (F := F) x1) shapeCasts_S50000_S50000x1

variable (m : (ℓ : Loc nD τ sig) → Buf (Elt F) ℓ) (ρ : Dev nD → PrngReg) (c : Dev nD)

/-- The edge-index argument as launched. -/
abbrev edges : IVec S2x600000 32 := m ((c.tc : Thread nD τ).loc main_arg1)

/-! ## At the first region's entry (`W3`) -/

set_option maxHeartbeats 4000000 in
theorem W3_v15 : W3 m ρ c (Proc.devRef .tc main_v15) = invSqrtDegCol (F := F) (edges m c) := by
  show StableHlo.after hostOps0_2 (W2 m ρ c) (Proc.devRef .tc main_v15) = _
  dsimp only [hostOps0_2]
  after_results
  rfl

set_option maxHeartbeats 4000000 in
theorem W3_v5 : W3 m ρ c (Proc.devRef .tc main_v5) = srcWords (edges m c) := by
  show StableHlo.after hostOps0_2 (W2 m ρ c) (Proc.devRef .tc main_v5) = _
  dsimp only [hostOps0_2]
  after_results
  rfl
set_option maxHeartbeats 4000000 in
theorem W3_v6 : W3 m ρ c (Proc.devRef .tc main_v6) = tgtWords (edges m c) := by
  show StableHlo.after hostOps0_2 (W2 m ρ c) (Proc.devRef .tc main_v6) = _
  dsimp only [hostOps0_2]
  after_results
  rfl
set_option maxHeartbeats 4000000 in
/-- The first bias as a row `[1, 128]`. -/
theorem W3_v16 : W3 m ρ c (Proc.devRef .tc main_v16)
    = shapeCast S1x128 (m ((c.tc : Thread nD τ).loc main_arg3)) shapeCasts_S128_S1x128 := by
  show StableHlo.after hostOps0_2 (W2 m ρ c) (Proc.devRef .tc main_v16) = _
  dsimp only [hostOps0_2]
  after_results
  rfl
set_option maxHeartbeats 4000000 in
/-- The second bias as a row `[1, 64]`. -/
theorem W3_v17 : W3 m ρ c (Proc.devRef .tc main_v17)
    = shapeCast S1x64 (m ((c.tc : Thread nD τ).loc main_arg5)) shapeCasts_S64_S1x64 := by
  show StableHlo.after hostOps0_2 (W2 m ρ c) (Proc.devRef .tc main_v17) = _
  dsimp only [hostOps0_2]
  after_results
  rfl
set_option maxHeartbeats 4000000 in
theorem W3_arg0 : W3 m ρ c (Proc.devRef .tc main_arg0) = m ((c.tc : Thread nD τ).loc main_arg0) := by
  show StableHlo.after hostOps0_2 (W2 m ρ c) (Proc.devRef .tc main_arg0) = _
  dsimp only [hostOps0_2]
  after_results
  try rfl
set_option maxHeartbeats 4000000 in
theorem W3_arg2 : W3 m ρ c (Proc.devRef .tc main_arg2) = m ((c.tc : Thread nD τ).loc main_arg2) := by
  show StableHlo.after hostOps0_2 (W2 m ρ c) (Proc.devRef .tc main_arg2) = _
  dsimp only [hostOps0_2]
  after_results
  try rfl
set_option maxHeartbeats 4000000 in
theorem W3_arg4 : W3 m ρ c (Proc.devRef .tc main_arg4) = m ((c.tc : Thread nD τ).loc main_arg4) := by
  show StableHlo.after hostOps0_2 (W2 m ρ c) (Proc.devRef .tc main_arg4) = _
  dsimp only [hostOps0_2]
  after_results
  try rfl

/-! ## At the first region's exit (`W4`): only its output array has changed -/

/-- The scaling column is an input window of the region: it leaves as it entered. -/
theorem W4_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))
theorem W4_v5 : W4 m ρ c (Proc.devRef .tc main_v5) = W3 m ρ c (Proc.devRef .tc main_v5) := W4_of_ne m ρ c main_v5 (by decide)
theorem W4_v6 : W4 m ρ c (Proc.devRef .tc main_v6) = W3 m ρ c (Proc.devRef .tc main_v6) := W4_of_ne m ρ c main_v6 (by decide)
theorem W4_v16 : W4 m ρ c (Proc.devRef .tc main_v16) = W3 m ρ c (Proc.devRef .tc main_v16) := W4_of_ne m ρ c main_v16 (by decide)
theorem W4_v17 : W4 m ρ c (Proc.devRef .tc main_v17) = W3 m ρ c (Proc.devRef .tc main_v17) := W4_of_ne m ρ c main_v17 (by decide)
theorem W4_arg4 : W4 m ρ c (Proc.devRef .tc main_arg4) = W3 m ρ c (Proc.devRef .tc main_arg4) := W4_of_ne m ρ c main_arg4 (by decide)

/-! ## At the second region's entry (`W5`): the first layer's messages gathered and summed -/

/-- Rows of `z` gathered at the wrapped source words, widened, and scatter-added into a zero matrix at the target words. -/
def gatherScatter128 (z : FVec F S50000x128 .bf16) (r t : IVec S650000 32) : FVec F S50000x128 .f32 :=
  Host.scatterAdd scatter_S50000x128_S650000x1_S650000x128_1_0_0_1
    (broadcastInDim S50000x128 ![] bcast_S_S50000x128 (constant (F := F) S_ .f32 0x00000000#32))
    (rawCol t)
    (extf .f32 (Host.gather gather_S50000x128_S650000x1_S650000x128_1_0_n_n_0_1_1128 z (wrapCol r)) bitsLt_bf16_f32)

set_option maxHeartbeats 4000000 in
theorem W5_v29 : W5 m ρ c (Proc.devRef .tc main_v29)
    = gatherScatter128 (W4 m ρ c (Proc.devRef .tc main_v18)) (W4 m ρ c (Proc.devRef .tc main_v5)) (W4 m ρ c (Proc.devRef .tc main_v6)) := by
  show StableHlo.after hostOps1 (W4 m ρ c) (Proc.devRef .tc main_v29) = _
  dsimp only [hostOps1]
  after_results
  rfl
set_option maxHeartbeats 4000000 in
theorem W5_v15 : W5 m ρ c (Proc.devRef .tc main_v15) = W4 m ρ c (Proc.devRef .tc main_v15) := by
  show StableHlo.after hostOps1 (W4 m ρ c) (Proc.devRef .tc main_v15) = _
  dsimp only [hostOps1]
  after_results
  try rfl
set_option maxHeartbeats 4000000 in
theorem W5_v16 : W5 m ρ c (Proc.devRef .tc main_v16) = W4 m ρ c (Proc.devRef .tc main_v16) := by
  show StableHlo.after hostOps1 (W4 m ρ c) (Proc.devRef .tc main_v16) = _
  dsimp only [hostOps1]
  after_results
  try rfl
set_option maxHeartbeats 4000000 in
theorem W5_v17 : W5 m ρ c (Proc.devRef .tc main_v17) = W4 m ρ c (Proc.devRef .tc main_v17) := by
  show StableHlo.after hostOps1 (W4 m ρ c) (Proc.devRef .tc main_v17) = _
  dsimp only [hostOps1]
  after_results
  try rfl
set_option maxHeartbeats 4000000 in
theorem W5_arg4 : W5 m ρ c (Proc.devRef .tc main_arg4) = W4 m ρ c (Proc.devRef .tc main_arg4) := by
  show StableHlo.after hostOps1 (W4 m ρ c) (Proc.devRef .tc main_arg4) = _
  dsimp only [hostOps1]
  after_results
  try rfl
set_option maxHeartbeats 4000000 in
theorem W5_v5 : W5 m ρ c (Proc.devRef .tc main_v5) = W4 m ρ c (Proc.devRef .tc main_v5) := by
  show StableHlo.after hostOps1 (W4 m ρ c) (Proc.devRef .tc main_v5) = _
  dsimp only [hostOps1]
  after_results
  try rfl
set_option maxHeartbeats 4000000 in
theorem W5_v6 : W5 m ρ c (Proc.devRef .tc main_v6) = W4 m ρ c (Proc.devRef .tc main_v6) := by
  show StableHlo.after hostOps1 (W4 m ρ c) (Proc.devRef .tc main_v6) = _
  dsimp only [hostOps1]
  after_results
  try rfl

end Cert.KernelIdeal.HostValue

end
-- ==== Proof.KernelHostB.lean ====
/-
  The kernel program's buffers at the boundaries of its second and third regions, and each region's inputs traced back to
  the arguments.

  Across a region only its output array changes; across a host stretch only the buffers its operations write. So the
  scaling column, the bias rows, the second weight and the two word vectors reach every later boundary unchanged, and the
  only new values are the two gathered-and-summed message arrays (one per layer) and the regions' outputs.
-/
import proofs.«171738_j23192823399146_2_alg».proof.Proof.KernelHostA

set_option maxRecDepth 16384

noncomputable section

namespace Cert.KernelIdeal.HostValue

open Idealize.ShloMosaic Idealize.ShloMosaic.TcCoe Idealize.SL.Sem Idealize.ShloMosaic.StableHlo Cert.KernelIdeal Cert.KernelIdeal.Gen

variable {F : FTy → Type} [FloatOps F]
variable (m : (ℓ : Loc nD τ sig) → Buf (Elt F) ℓ) (ρ : Dev nD → PrngReg) (c : Dev nD)

/-! ## At the second region's exit (`W6`): only its output array has changed -/

theorem W6_v15 : W6 m ρ c (Proc.devRef .tc main_v15) = W5 m ρ c (Proc.devRef .tc main_v15) :=
  (W6_arr m ρ c 1).trans (((dat1 (V5 m ρ) c).arrAt_in 1 rfl _).trans (A_eq1 (V5 m ρ) c 1))
theorem W6_v5 : W6 m ρ c (Proc.devRef .tc main_v5) = W5 m ρ c (Proc.devRef .tc main_v5) := W6_of_ne m ρ c main_v5 (by decide)
theorem W6_v6 : W6 m ρ c (Proc.devRef .tc main_v6) = W5 m ρ c (Proc.devRef .tc main_v6) := W6_of_ne m ρ c main_v6 (by decide)
theorem W6_v17 : W6 m ρ c (Proc.devRef .tc main_v17) = W5 m ρ c (Proc.devRef .tc main_v17) := W6_of_ne m ρ c main_v17 (by decide)

/-! ## At the third region's entry (`W7`): the second layer's messages gathered and summed -/

/-- Rows of `z` gathered at the wrapped source words, widened, and scatter-added into a zero matrix at the target words. -/
def gatherScatter64 (z : FVec F S50000x64 .bf16) (r t : IVec S650000 32) : FVec F S50000x64 .f32 :=
  Host.scatterAdd scatter_S50000x64_S650000x1_S650000x64_1_0_0_1
    (broadcastInDim S50000x64 ![] bcast_S_S50000x64 (constant (F := F) S_ .f32 0x00000000#32))
    (rawCol t)
    (extf .f32 (Host.gather gather_S50000x64_S650000x1_S650000x64_1_0_n_n_0_1_164 z (wrapCol r)) bitsLt_bf16_f32)

set_option maxHeartbeats 4000000 in
theorem W7_v41 : W7 m ρ c (Proc.devRef .tc main_v41)
    = gatherScatter64 (W6 m ρ c (Proc.devRef .tc main_v30)) (W6 m ρ c (Proc.devRef .tc main_v5)) (W6 m ρ c (Proc.devRef .tc main_v6)) := by
  show StableHlo.after hostOps2 (W6 m ρ c) (Proc.devRef .tc main_v41) = _
  dsimp only [hostOps2]
  after_results
  rfl
set_option maxHeartbeats 4000000 in
theorem W7_v15 : W7 m ρ c (Proc.devRef .tc main_v15) = W6 m ρ c (Proc.devRef .tc main_v15) := by
  show StableHlo.after hostOps2 (W6 m ρ c) (Proc.devRef .tc main_v15) = _
  dsimp only [hostOps2]
  after_results
  try rfl
set_option maxHeartbeats 4000000 in
theorem W7_v17 : W7 m ρ c (Proc.devRef .tc main_v17) = W6 m ρ c (Proc.devRef .tc main_v17) := by
  show StableHlo.after hostOps2 (W6 m ρ c) (Proc.devRef .tc main_v17) = _
  dsimp only [hostOps2]
  after_results
  try rfl

/-! ## Each region's inputs, from the arguments -/

/-- Region 0 enters with the features, the first weight and the scaling column. -/
theorem V3_arg0 : V3 m ρ c main_arg0 = m ((c.tc : Thread nD τ).loc main_arg0) := W3_arg0 m ρ c
theorem V3_arg2 : V3 m ρ c main_arg2 = m ((c.tc : Thread nD τ).loc main_arg2) := W3_arg2 m ρ c
theorem V3_v15 : V3 m ρ c main_v15 = invSqrtDegCol (edges m c) := W3_v15 m ρ c

/-- Region 1 enters with the first layer's summed messages, the scaling column, the first bias row and the second weight. -/
theorem V5_v29 : V5 m ρ c main_v29
    = gatherScatter128 ((dat0 (V3 m ρ) c).arrAt 3 cfg0.N) (srcWords (edges m c)) (tgtWords (edges m c)) := by
  have h18 : W4 m ρ c (Proc.devRef .tc main_v18) = (dat0 (V3 m ρ) c).arrAt 3 cfg0.N := W4_arr m ρ c 3
  show W5 m ρ c (Proc.devRef .tc main_v29) = _
  rw [W5_v29, h18, W4_v5, W3_v5, W4_v6, W3_v6]
theorem V5_v15 : V5 m ρ c main_v15 = invSqrtDegCol (edges m c) :=
  (W5_v15 m ρ c).trans ((W4_v15 m ρ c).trans (W3_v15 m ρ c))
theorem V5_v16 : V5 m ρ c main_v16 = shapeCast S1x128 (m ((c.tc : Thread nD τ).loc main_arg3)) shapeCasts_S128_S1x128 :=
  (W5_v16 m ρ c).trans ((W4_v16 m ρ c).trans (W3_v16 m ρ c))
theorem V5_arg4 : V5 m ρ c main_arg4 = m ((c.tc : Thread nD τ).loc main_arg4) :=
  (W5_arg4 m ρ c).trans ((W4_arg4 m ρ c).trans (W3_arg4 m ρ c))

/-- Region 2 enters with the second layer's summed messages, the scaling column and the second bias row. -/
theorem V7_v41 : V7 m ρ c main_v41
    = gatherScatter64 ((dat1 (V5 m ρ) c).arrAt 4 cfg1.N) (srcWords (edges m c)) (tgtWords (edges m c)) := by
  have h30 : W6 m ρ c (Proc.devRef .tc main_v30) = (dat1 (V5 m ρ) c).arrAt 4 cfg1.N := W6_arr m ρ c 4
  show W7 m ρ c (Proc.devRef .tc main_v41) = _
  rw [W7_v41, h30, W6_v5, W5_v5, W4_v5, W3_v5, W6_v6, W5_v6, W4_v6, W3_v6]
theorem V7_v15 : V7 m ρ c main_v15 = invSqrtDegCol (edges m c) :=
  (W7_v15 m ρ c).trans ((W6_v15 m ρ c).trans ((W5_v15 m ρ c).trans ((W4_v15 m ρ c).trans (W3_v15 m ρ c))))
theorem V7_v17 : V7 m ρ c main_v17 = shapeCast S1x64 (m ((c.tc : Thread nD τ).loc main_arg5)) shapeCasts_S64_S1x64 :=
  (W7_v17 m ρ c).trans ((W6_v17 m ρ c).trans ((W5_v17 m ρ c).trans ((W4_v17 m ρ c).trans (W3_v17 m ρ c))))

end Cert.KernelIdeal.HostValue

end
-- ==== Proof.LibNonnegScale.lean ====
/-
  Scaling a finite sum of extended reals by a nonnegative finite factor.

  On the extended reals `(y + z) * d = y * d + z * d` fails in general (take `y = ⊤`, `z = ⊥` and `d < 0`, or `d = ⊤`
  with `y + z = 0`), but it holds for EVERY `y`, `z` once `0 ≤ d` and `d ≠ ⊤`. So a factor of that kind moves across a
  finite sum whatever the terms are — no finiteness of the terms is needed. The factor met here is the inverse square root
  of a node's degree, guarded by `degree > 0`: `rsqrt ⊤ = 0` and `rsqrt r = (√r)⁻¹` for a real `r > 0`, so the guarded
  value is nonnegative and finite for every extended-real degree.
-/
import Idealize.ShloMosaic.PureOps.Ideal
import Idealize.ShloMosaic.PureOps.Ideal.Laws

noncomputable section

open scoped BigOperators

namespace Cert.NonnegScale

open Idealize.ShloMosaic

/-- A factor that is nonnegative and not `⊤` distributes over a finite sum of arbitrary extended reals. -/
theorem sum_mul {ι : Type*} (s : Finset ι) (f : ι → EReal) {d : EReal} (h0 : 0 ≤ d) (htop : d ≠ ⊤) :
    (∑ j ∈ s, f j) * d = ∑ j ∈ s, f j * d := by
  classical
  induction s using Finset.induction_on with
  | empty => simp
  | insert a s ha ih =>
    rw [Finset.sum_insert ha, Finset.sum_insert ha, EReal.right_distrib_of_nonneg_of_ne_top h0 htop, ih]

/-- The same with a zero in front of each sum, the form a scatter-add into a zero array takes. -/
theorem zero_add_sum_mul {ι : Type*} (s : Finset ι) (f : ι → EReal) {d : EReal} (h0 : 0 ≤ d) (htop : d ≠ ⊤) :
    (0 + ∑ j ∈ s, f j) * d = 0 + ∑ j ∈ s, f j * d := by
  rw [zero_add, zero_add, sum_mul s f h0 htop]

/-- The inverse square root of a positive extended real is nonnegative and finite (`rsqrt ⊤ = 0`). -/
theorem rsqrt_of_pos {y : EReal} (hy : 0 < y) : 0 ≤ Ideal.rsqrt y ∧ Ideal.rsqrt y ≠ ⊤ := by
  induction y using EReal.rec with
  | bot => exact absurd hy (not_lt_bot)
  | top => rw [Ideal.rsqrt_top]; exact ⟨le_refl _, EReal.zero_ne_top⟩
  | coe r =>
    have hr : 0 < r := by exact_mod_cast hy
    have h1 : ¬ r < 0 := not_lt.mpr hr.le
    have h2 : ¬ r = 0 := hr.ne'
    have e : Ideal.rsqrt (r : EReal) = (((Real.sqrt r)⁻¹ : ℝ) : EReal) := by
      rw [Ideal.rsqrt_coe, if_neg h1, if_neg h2]
    rw [e]
    exact ⟨by exact_mod_cast inv_nonneg.mpr (Real.sqrt_nonneg r), EReal.coe_ne_top _⟩

/-- `where(y > 0, rsqrt y, 0)` is nonnegative and finite at every extended real `y`. -/
theorem guarded_rsqrt (y : EReal) :
    0 ≤ Scalar.select (Ideal.cmp .ogt y 0) (Ideal.rsqrt y) 0 ∧ Scalar.select (Ideal.cmp .ogt y 0) (Ideal.rsqrt y) 0 ≠ ⊤ := by
  by_cases hy : 0 < y
  · have hc : Ideal.cmp .ogt y 0 = 1#1 := by simp [Ideal.cmp, hy]
    rw [hc]
    simpa [Scalar.select] using rsqrt_of_pos hy
  · have hc : Ideal.cmp .ogt y 0 = 0#1 := by simp [Ideal.cmp, hy]
    rw [hc]
    simp [Scalar.select]

end Cert.NonnegScale

end
-- ==== Proof.LibRowGatherScatter.lean ====
/-
  Gathering rows and scatter-adding rows, read at an index.

  `x[idx]` for a matrix `x : [N, C]` and an index column `idx : [E, 1]` is a gather with one collapsed axis: result row `e` is
  row `clampRow (idx[e, 0])` of `x`, the start index read as a signed integer and clamped into `[0, N − 1]`. The same for a
  vector `x : [N]`. A scatter-add of rows `upd : [E, C]` into `x : [N, C]` at an index column adds, to element `(p, q)`, the
  elements `upd[e, q]` of exactly those rows `e` whose index, read signed and NOT clamped, is `p`; a row whose index falls
  outside `[0, N)` is dropped. So a segment sum is a sum over the filter `{e | idx[e, 0] = p}` of one column.
-/
import Idealize.ShloMosaic.PureOps.Ideal
import Idealize.ShloMosaic.Lib.ValueIdx

noncomputable section

open scoped BigOperators

namespace Cert.RowGatherScatter

open Idealize.ShloMosaic Idealize.ShloMosaic.ValueIdx

/-- The row a start index selects: the word read as a signed integer, clamped into `[0, N − 1]`. -/
def clampRow (N : Nat) (hN : 0 < N) {w : Nat} (v : BitVec w) : Fin N := ⟨min v.toInt.toNat (N - 1), by omega⟩

/-- A word whose signed value is the row `p` selects that row. -/
theorem clampRow_of_toInt {N : Nat} (hN : 0 < N) {w : Nat} (v : BitVec w) (p : Fin N) (h : v.toInt = (p.val : Int)) :
    clampRow N hN v = p := by
  apply Fin.ext
  show min v.toInt.toNat (N - 1) = p.val
  have hp := p.isLt
  rw [h]; simp only [Int.toNat_natCast]; omega

/-! ## Rows of a matrix gathered at an index column -/

section RowGather
variable {α : Type}

/-- The dimension numbers of `x[idx]` for `x : [N, C]`, `idx : [E, 1]`: rows are collapsed, columns are the offset axis. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Element `(e, q)` of the gathered rows is element `q` of the row the index `idx[e, 0]` selects. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (clampRow N hN (idx (ix2 e (0 : Fin 1)))) q) := by
  unfold Host.gather
  congr 1
  funext a
  refine Fin.ext ?_
  match a with
  | ⟨0, _⟩ =>
    show (rowGatherDims N E C wf).start (ix2 e q) idx 0 + (rowGatherDims N E C wf).batchCoord (ix2 e q) 0
        + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
        + (rowGatherDims N E C wf).offCoord (ix2 e q) 1 = q.val
    rw [GatherDims.batchCoord_eq_zero _ _ _ List.not_mem_nil]
    have hs : (rowGatherDims N E C wf).start (ix2 e q) idx 1 = 0 := by
      unfold GatherDims.start
      rw [dif_neg (show ¬ (1 : Fin 2) ∈ ([0] : List (Fin 2)) by decide)]
    rw [hs]
    simp only [Nat.add_zero, Nat.zero_add]
    have hk : (1 : Fin 2) ∈ (rowGatherDims N E C wf).sKept :=
      (GatherDims.mem_sKept _ _).mpr ⟨(show ¬ (1 : Fin 2) ∈ ([0] : List (Fin 2)) by decide), List.not_mem_nil⟩
    unfold GatherDims.offCoord
    rw [dif_pos hk]
    rfl

end RowGather

/-! ## Elements of a vector gathered at an index column -/

section VecGather
variable {α : Type}

/-- The dimension numbers of `x[idx]` for `x : [N]`, `idx : [E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gathered vector is the element the index `idx[e, 0]` selects. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end VecGather

/-! ## Rows scatter-added into a matrix at an index column -/

section RowScatter

/-- The dimension numbers of `x.at[idx].add(upd)` for `x : [N, C]`, `idx : [E, 1]`, `upd : [E, C]`: the update's columns are
    its window axis, the operand's rows are the inserted axis the index names. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- On the row axis the window of update element `(e, q)` starts at the index `idx[e, 0]`, read signed. -/
theorem rowScatter_start0 : (rowScatterDims N E C wf).start (ix2 e q) idx 0 = (idx (ix2 e (0 : Fin 1))).toInt := by
  unfold ScatterDims.start
  rw [dif_pos (show (0 : Fin 2) ∈ ([0] : List (Fin 2)) from List.mem_singleton.mpr rfl)]
  have hsi : (rowScatterDims N E C wf).siIdx (ix2 e q) ⟨List.idxOf (0 : Fin 2) ([0] : List (Fin 2)),
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
/-- On the column axis it starts at `0`: the index names no column. -/
theorem rowScatter_start1 : (rowScatterDims N E C wf).start (ix2 e q) idx 1 = 0 := by
  unfold ScatterDims.start
  rw [dif_neg (show ¬ (1 : Fin 2) ∈ ([0] : List (Fin 2)) by decide)]
/-- The row axis is inserted: no window coordinate. -/
theorem rowScatter_window0 : (rowScatterDims N E C wf).window (ix2 e q) 0 = 0 := by
  have h : ¬ (0 : Fin 2) ∈ (rowScatterDims N E C wf).sKept :=
    (show ¬ (0 : Fin 2) ∈ (List.finRange 2).filter (· ∉ ([0] : List (Fin 2))) by decide)
  unfold ScatterDims.window
  rw [dif_neg h]
/-- The column axis takes the update's column. -/
theorem rowScatter_window1 : (rowScatterDims N E C wf).window (ix2 e q) 1 = q.val := by
  have h : (1 : Fin 2) ∈ (rowScatterDims N E C wf).sKept :=
    (show (1 : Fin 2) ∈ (List.finRange 2).filter (· ∉ ([0] : List (Fin 2))) by decide)
  unfold ScatterDims.window
  rw [dif_pos h]
  rfl

/-- UPDATE ELEMENT `(e, q)` LANDS ON `(p, r)` exactly when its index, read signed, is the row `p` and its column is `r`. -/
theorem rowScatter_resultIdx?_iff (p : Fin N) (r : Fin C) :
    (rowScatterDims N E C wf).resultIdx? (ix2 e q) idx = some (ix2 p r)
      ↔ (idx (ix2 e (0 : Fin 1))).toInt = (p.val : Int) ∧ q = r := by
  have s0 := rowScatter_start0 wf idx e q
  have s1 := rowScatter_start1 wf idx e q
  have w0 := rowScatter_window0 wf e q
  have w1 := rowScatter_window1 wf e q
  have hp := p.isLt
  have hq := q.isLt
  unfold ScatterDims.resultIdx?
  constructor
  · intro h
    split at h
    · rename_i hin
      have hf := Option.some.inj h
      have h0 := congrArg (fun f => (f 0).val) hf
      have h1 := congrArg (fun f => (f 1).val) hf
      simp only at h0 h1
      have hin0 := hin 0
      rw [s0, w0] at h0 hin0
      rw [s1, w1] at h1
      refine ⟨?_, Fin.ext ?_⟩
      · have h0' : ((idx (ix2 e (0 : Fin 1))).toInt + ((0 : Nat) : Int)).toNat = p.val := h0
        have hin0' : 0 ≤ (idx (ix2 e (0 : Fin 1))).toInt + ((0 : Nat) : Int) := hin0.1
        omega
      · have h1' : ((0 : Int) + ((q.val : Nat) : Int)).toNat = r.val := h1
        omega
    · exact absurd h (by simp)
  · rintro ⟨h0, rfl⟩
    have hin : ∀ a : Fin 2, 0 ≤ (rowScatterDims N E C wf).start (ix2 e q) idx a + ((rowScatterDims N E C wf).window (ix2 e q) a : Int)
        ∧ (rowScatterDims N E C wf).start (ix2 e q) idx a + ((rowScatterDims N E C wf).window (ix2 e q) a : Int)
          < ((⟨2, ![N, C]⟩ : Shape).size a : Int) := by
      intro a
      match a with
      | ⟨0, _⟩ =>
        show 0 ≤ (rowScatterDims N E C wf).start (ix2 e q) idx 0 + ((rowScatterDims N E C wf).window (ix2 e q) 0 : Int)
          ∧ (rowScatterDims N E C wf).start (ix2 e q) idx 0 + ((rowScatterDims N E C wf).window (ix2 e q) 0 : Int) < (N : Int)
        rw [s0, w0, h0]; omega
      | ⟨1, _⟩ =>
        show 0 ≤ (rowScatterDims N E C wf).start (ix2 e q) idx 1 + ((rowScatterDims N E C wf).window (ix2 e q) 1 : Int)
          ∧ (rowScatterDims N E C wf).start (ix2 e q) idx 1 + ((rowScatterDims N E C wf).window (ix2 e q) 1 : Int) < (C : Int)
        rw [s1, w1]; omega
    rw [dif_pos hin]
    congr 1
    funext a
    refine Fin.ext ?_
    match a with
    | ⟨0, _⟩ =>
      show ((rowScatterDims N E C wf).start (ix2 e q) idx 0 + ((rowScatterDims N E C wf).window (ix2 e q) 0 : Int)).toNat = p.val
      rw [s0, w0, h0]; omega
    | ⟨1, _⟩ =>
      show ((rowScatterDims N E C wf).start (ix2 e q) idx 1 + ((rowScatterDims N E C wf).window (ix2 e q) 1 : Int)).toNat = q.val
      rw [s1, w1]; omega

/-- THE SCATTER-ADD READ AT `(p, r)`: the operand's element plus the sum, over the rows `e` whose index is `p`, of
    the update's element `(e, r)`. -/
theorem rowScatterAdd_apply (x : (⟨2, ![N, C]⟩ : Shape).Idx → EReal) (upd : (⟨2, ![E, C]⟩ : Shape).Idx → EReal)
    (p : Fin N) (r : Fin C) :
    Ideal.hostScatterAdd (rowScatterDims N E C wf) x idx upd (ix2 p r)
      = x (ix2 p r) + ∑ e ∈ Finset.univ.filter (fun e : Fin E => (idx (ix2 e (0 : Fin 1))).toInt = (p.val : Int)), upd (ix2 e r) := by
  unfold Ideal.hostScatterAdd
  congr 1
  rw [Finset.sum_filter, Finset.sum_filter, sum_idx2]
  refine Finset.sum_congr rfl fun e _ => ?_
  have hiff : ∀ q : Fin C, ((rowScatterDims N E C wf).resultIdx? (ix2 e q) idx = some (ix2 p r))
      ↔ ((idx (ix2 e (0 : Fin 1))).toInt = (p.val : Int) ∧ q = r) := fun q => rowScatter_resultIdx?_iff wf idx e q p r
  simp only [hiff]
  by_cases h0 : (idx (ix2 e (0 : Fin 1))).toInt = (p.val : Int)
  · simp only [h0, true_and, if_true]
    rw [Finset.sum_ite_eq' Finset.univ r (fun q => upd (ix2 e q))]
    simp
  · simp only [h0, false_and, if_false, Finset.sum_const_zero]

end RowScatter

end Cert.RowGatherScatter

end
-- ==== Proof.Spec.lean ====
/-
  The two-layer graph convolution as functions of extended-real arrays, index by index.

  Nodes are `Fin N`, edges `Fin E` (the given edges followed by one self-loop per node). Each edge carries a source word and
  a target word. A gather reads the row `clampRow` of the word (signed, clamped into `[0, N − 1]`); a scatter-add sends edge
  `e` to row `p` exactly when its target word, read signed and NOT clamped, is `p`. `d p` is the inverse square root of
  node `p`'s degree (zero for degree zero).

  One layer on features `y : [N, C]`, written two ways:
  * factored (`layerFactored`): scale row `p'` of `y` by `d p'` BEFORE gathering, sum the gathered rows into their targets,
    then scale the sum at `p` by `d p`, add the bias;
  * per edge (`layerPerEdge`): multiply each gathered row by the edge weight `d (source) · d (target)`, sum into the targets,
    add the bias.
  They agree because an edge that lands on `p` has target `p`, multiplication is associative, and the nonnegative finite
  factor `d p` moves across the sum (LibNonnegScale).
-/
import Idealize.ShloMosaic.PureOps.Ideal
import Idealize.ShloMosaic.Lib.ValueIdx
import proofs.«171738_j23192823399146_2_alg».proof.Proof.LibNonnegScale
import proofs.«171738_j23192823399146_2_alg».proof.Proof.LibRowGatherScatter

noncomputable section

open scoped BigOperators

namespace Cert.GraphConv

open Idealize.ShloMosaic Idealize.ShloMosaic.ValueIdx Cert.RowGatherScatter

/-- A matrix of extended reals. -/
abbrev Mat (n0 n1 : Nat) := (⟨2, ![n0, n1]⟩ : Shape).Idx → EReal
/-- A vector of extended reals. -/
abbrev Vect (n : Nat) := (⟨1, ![n]⟩ : Shape).Idx → EReal
/-- A column of index words, one per edge. -/
abbrev Words (E : Nat) := IVec ⟨2, ![E, 1]⟩ 32

/-! ## What each of the three kernels leaves in its output array -/

/-- `(x · w)` with row `p` scaled by `d[p, 0]`: element `(p, q)` is `(Σ_k x[p,k] · w[k,q]) · d[p,0]`. -/
def scaledMatmulAt {N K C : Nat} (x : Mat N K) (w : Mat K C) (d : Mat N 1) (p : Fin N) (q : Fin C) : EReal :=
  (∑ k : Fin K, x (ix2 p k) * w (ix2 k q)) * d (ix2 p (0 : Fin 1))
def scaledMatmul {N K C : Nat} (x : Mat N K) (w : Mat K C) (d : Mat N 1) : Mat N C :=
  fun i => scaledMatmulAt x w d (i 0) (i 1)
theorem scaledMatmul_apply {N K C : Nat} (x : Mat N K) (w : Mat K C) (d : Mat N 1) (p : Fin N) (q : Fin C) :
    scaledMatmul x w d (ix2 p q) = (∑ k : Fin K, x (ix2 p k) * w (ix2 k q)) * d (ix2 p (0 : Fin 1)) := rfl

/-- The hidden features from the summed messages `a`: `max (a[p,k] · d[p,0] + b[0,k]) 0`. -/
def hiddenAt {N K : Nat} (a : Mat N K) (d : Mat N 1) (b : Mat 1 K) (p : Fin N) (k : Fin K) : EReal :=
  max (a (ix2 p k) * d (ix2 p (0 : Fin 1)) + b (ix2 (0 : Fin 1) k)) 0
/-- The fused second kernel: the hidden features times `w`, row `p` scaled by `d[p,0]`. -/
def hiddenScaledMatmulAt {N K C : Nat} (a : Mat N K) (d : Mat N 1) (b : Mat 1 K) (w : Mat K C) (p : Fin N) (q : Fin C) : EReal :=
  (∑ k : Fin K, hiddenAt a d b p k * w (ix2 k q)) * d (ix2 p (0 : Fin 1))
def hiddenScaledMatmul {N K C : Nat} (a : Mat N K) (d : Mat N 1) (b : Mat 1 K) (w : Mat K C) : Mat N C :=
  fun i => hiddenScaledMatmulAt a d b w (i 0) (i 1)
theorem hiddenScaledMatmul_apply {N K C : Nat} (a : Mat N K) (d : Mat N 1) (b : Mat 1 K) (w : Mat K C) (p : Fin N) (q : Fin C) :
    hiddenScaledMatmul a d b w (ix2 p q)
      = (∑ k : Fin K, max (a (ix2 p k) * d (ix2 p (0 : Fin 1)) + b (ix2 (0 : Fin 1) k)) 0 * w (ix2 k q)) * d (ix2 p (0 : Fin 1)) := rfl

/-- The last kernel: `a[p,q] · d[p,0] + b[0,q]`. -/
def scaleBiasAt {N C : Nat} (a : Mat N C) (d : Mat N 1) (b : Mat 1 C) (p : Fin N) (q : Fin C) : EReal :=
  a (ix2 p q) * d (ix2 p (0 : Fin 1)) + b (ix2 (0 : Fin 1) q)
def scaleBias {N C : Nat} (a : Mat N C) (d : Mat N 1) (b : Mat 1 C) : Mat N C :=
  fun i => scaleBiasAt a d b (i 0) (i 1)
theorem scaleBias_apply {N C : Nat} (a : Mat N C) (d : Mat N 1) (b : Mat 1 C) (p : Fin N) (q : Fin C) :
    scaleBias a d b (ix2 p q) = a (ix2 p q) * d (ix2 p (0 : Fin 1)) + b (ix2 (0 : Fin 1) q) := rfl

/-! ## One layer, two ways -/

section Layer
variable {N E C : Nat} (hN : 0 < N)

/-- The edges a scatter-add sends to row `p`: those whose target word, read signed, is `p`. -/
def incoming (tgt : Words E) (p : Fin N) : Finset (Fin E) :=
  Finset.univ.filter (fun e : Fin E => (tgt (ix2 e (0 : Fin 1))).toInt = (p.val : Int))

/-- The row an edge's source word selects. -/
abbrev rowOf (src : Words E) (e : Fin E) : Fin N := clampRow N hN (src (ix2 e (0 : Fin 1)))

/-- FACTORED: rows scaled by `d` before the gather, the sum scaled by `d p` after, plus the bias. -/
def layerFactoredAt (y : Mat N C) (d : Vect N) (src tgt : Words E) (b : Fin C → EReal) (p : Fin N) (q : Fin C) : EReal :=
  (0 + ∑ e ∈ incoming tgt p, y (ix2 (rowOf hN src e) q) * d (ix1 (rowOf hN src e))) * d (ix1 p) + b q

/-- PER EDGE: each gathered row times the edge weight `d (source) · d (wrapped target)`, summed, plus the bias. -/
def layerPerEdgeAt (y : Mat N C) (d : Vect N) (src tgt tgtw : Words E) (b : Fin C → EReal) (p : Fin N) (q : Fin C) : EReal :=
  (0 + ∑ e ∈ incoming tgt p, y (ix2 (rowOf hN src e) q) * (d (ix1 (rowOf hN src e)) * d (ix1 (rowOf hN tgtw e)))) + b q

/-- The two agree when `d` is nonnegative and finite and an edge landing on `p` has wrapped target `p`. -/
theorem layer_eq (y : Mat N C) (d : Vect N) (src tgt tgtw : Words E) (b : Fin C → EReal)
    (hd : ∀ p : Fin N, 0 ≤ d (ix1 p) ∧ d (ix1 p) ≠ ⊤)
    (htw : ∀ (e : Fin E) (p : Fin N), (tgt (ix2 e (0 : Fin 1))).toInt = (p.val : Int) → rowOf hN tgtw e = p)
    (p : Fin N) (q : Fin C) :
    layerFactoredAt hN y d src tgt b p q = layerPerEdgeAt hN y d src tgt tgtw b p q := by
  unfold layerFactoredAt layerPerEdgeAt
  rw [Cert.NonnegScale.zero_add_sum_mul _ _ (hd p).1 (hd p).2]
  congr 2
  refine Finset.sum_congr rfl fun e he => ?_
  rw [htw e p (Finset.mem_filter.mp he).2, mul_assoc]

end Layer

/-! ## The two layers -/

section TwoLayers
variable {N E K H C : Nat} (hN : 0 < N)

/-- Element `(p, q)` of `x · w`. -/
def matmulAt {N K C : Nat} (x : Mat N K) (w : Mat K C) (p : Fin N) (q : Fin C) : EReal := ∑ k : Fin K, x (ix2 p k) * w (ix2 k q)
/-- `x · w` as a matrix. -/
def matmul {N K C : Nat} (x : Mat N K) (w : Mat K C) : Mat N C := fun i => matmulAt x w (i 0) (i 1)
/-- The rectified features `max a 0` times `w`: element `(p, q)` is `Σ_k max (a p k) 0 · w[k, q]`. -/
def rectifiedTimes {N H C : Nat} (a : Fin N → Fin H → EReal) (w : Mat H C) : Mat N C :=
  fun i => ∑ k : Fin H, max (a (i 0) k) 0 * w (ix2 k (i 1))

/-- The network with both layers factored: what the three kernels and the host steps between them compute. -/
def twoLayerFactored (x : Mat N K) (w1 : Mat K H) (b1 : Fin H → EReal) (w2 : Mat H C) (b2 : Fin C → EReal)
    (d : Vect N) (src tgt : Words E) (p : Fin N) (q : Fin C) : EReal :=
  layerFactoredAt hN (rectifiedTimes (layerFactoredAt hN (matmul x w1) d src tgt b1) w2) d src tgt b2 p q

/-- The network with both layers per edge: what the reference computes. -/
def twoLayerPerEdge (x : Mat N K) (w1 : Mat K H) (b1 : Fin H → EReal) (w2 : Mat H C) (b2 : Fin C → EReal)
    (d : Vect N) (src tgt tgtw : Words E) (p : Fin N) (q : Fin C) : EReal :=
  layerPerEdgeAt hN (rectifiedTimes (layerPerEdgeAt hN (matmul x w1) d src tgt tgtw b1) w2) d src tgt tgtw b2 p q

theorem twoLayer_eq (x : Mat N K) (w1 : Mat K H) (b1 : Fin H → EReal) (w2 : Mat H C) (b2 : Fin C → EReal)
    (d : Vect N) (src tgt tgtw : Words E)
    (hd : ∀ p : Fin N, 0 ≤ d (ix1 p) ∧ d (ix1 p) ≠ ⊤)
    (htw : ∀ (e : Fin E) (p : Fin N), (tgt (ix2 e (0 : Fin 1))).toInt = (p.val : Int) → rowOf hN tgtw e = p)
    (p : Fin N) (q : Fin C) :
    twoLayerFactored hN x w1 b1 w2 b2 d src tgt p q = twoLayerPerEdge hN x w1 b1 w2 b2 d src tgt tgtw p q := by
  unfold twoLayerFactored twoLayerPerEdge
  have h1 : layerFactoredAt hN (matmul x w1) d src tgt b1 = layerPerEdgeAt hN (matmul x w1) d src tgt tgtw b1 :=
    funext fun p' => funext fun k => layer_eq hN _ d src tgt tgtw b1 hd htw p' k
  rw [h1]
  exact layer_eq hN _ d src tgt tgtw b2 hd htw p q

end TwoLayers

end Cert.GraphConv

end
-- ==== Proof.KernelMath.lean ====
/-
  The kernel program's host pieces read at an index, at the ideal instance.

  * The gather of rows at the wrapped source words followed by the scatter-add at the target words is, at `(p, k)`,
    `0 + Σ_{e lands on p} z[row(e), k]`: the scatter-add's zero operand contributes the `0`, widening is the identity.
  * The scaling column `[N, 1]` at `(p, 0)` is the guarded inverse-root degree at `p`; a bias row `[1, C]` at `(0, k)` is
    the bias at `k`.
  * The guarded inverse-root degree is nonnegative and finite at every node.
  * An edge whose target word, read signed, is the row `p` has a nonnegative word, so wrapping leaves it alone and the
    wrapped word selects the row `p` too.
  With these the composition of the three kernels' closed forms and the two gather/scatter-adds is the factored two-layer
  network of the specification.
-/
import proofs.«171738_j23192823399146_2_alg».proof.Proof.KernelHostB
import proofs.«171738_j23192823399146_2_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.HostValue

open Idealize.ShloMosaic Idealize.ShloMosaic.TcCoe Idealize.SL.Sem Idealize.ShloMosaic.ValueIdx Cert.KernelIdeal Cert.KernelIdeal.Gen
open Cert.RowGatherScatter Cert.GraphConv

/-- There is at least one node. -/
theorem hN : 0 < 50000 := by decide

/-! ## Layout operations at an index -/

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- A word vector broadcast to a column reads, at `(e, 0)`, the word at `e`. -/
theorem rawCol_apply (v : IVec S650000 32) (e : Fin 650000) : rawCol v (ix2 e (0 : Fin 1)) = v (ix1 e) := by
  unfold rawCol
  exact broadcastInDim_apply _ bcast_S650000_S650000x1_0 v _ (ix1 e) (fun a => match a with
    | ⟨0, _⟩ => by show e.val = if (650000 : Nat) = 1 then 0 else e.val; rw [if_neg (by decide)])

/-- The wrapped column at `(e, 0)`: the word plus the extent when it is negative, else the word. -/
theorem wrapCol_apply (v : IVec S650000 32) (e : Fin 650000) :
    wrapCol v (ix2 e (0 : Fin 1))
      = Scalar.select (IntOp.cmpi .slt (v (ix1 e)) 0#32) (IntOp.addi (v (ix1 e)) 50000#32) (v (ix1 e)) := by
  unfold wrapCol
  rw [broadcastInDim_apply _ bcast_S650000_S650000x1_0 _ _ (ix1 e) (fun a => match a with
    | ⟨0, _⟩ => by show e.val = if (650000 : Nat) = 1 then 0 else e.val; rw [if_neg (by decide)])]
  rfl

/-- AN EDGE THAT LANDS ON `p` HAS WRAPPED TARGET `p`: its word is nonnegative, so wrapping does nothing. -/
theorem wrapped_of_landing (t : IVec S650000 32) (e : Fin 650000) (p : Fin 50000)
    (h : (rawCol t (ix2 e (0 : Fin 1))).toInt = (p.val : Int)) : rowOf hN (wrapCol t) e = p := by
  rw [rawCol_apply] at h
  unfold rowOf
  rw [wrapCol_apply]
  have hnn : ¬ (t (ix1 e)).slt 0#32 = true := by
    simp only [BitVec.slt, decide_eq_true_eq, not_lt]
    rw [h]; simp
  have hc : IntOp.cmpi .slt (t (ix1 e)) 0#32 = 0#1 := by
    simp only [IntOp.cmpi, Bool.not_eq_true] at hnn ⊢
    rw [hnn]; rfl
  rw [hc, select_zero]
  exact clampRow_of_toInt hN _ p h

/-! ## The scaling factor -/

/-- The scaling column at `(p, 0)` is the guarded inverse-root degree at `p`. -/
theorem invSqrtDegCol_apply (x1 : IVec S2x600000 32) (p : Fin 50000) :
    invSqrtDegCol (F := Ideal) x1 (ix2 p (0 : Fin 1)) = invSqrtDeg (F := Ideal) x1 (ix1 p) := by
  rw [invSqrtDegCol]
  exact shapeCast_a_a1_apply _ _ p 0

/-- The guarded inverse-root degree is nonnegative and finite at every node. -/
theorem invSqrtDeg_nonneg_finite (x1 : IVec S2x600000 32) (p : Fin 50000) :
    0 ≤ invSqrtDeg (F := Ideal) x1 (ix1 p) ∧ invSqrtDeg (F := Ideal) x1 (ix1 p) ≠ ⊤ := by
  rw [invSqrtDeg]
  -- the degree stays a name: only the guard around it is read
  generalize degree (F := Ideal) x1 = dg
  have e : select (cmpf .ogt dg (broadcastInDim S50000 ![] bcast_S_S50000 (constant (F := Ideal) S_ .f32 0x00000000#32)))
        (Host.rsqrt dg) (broadcastInDim S50000 ![] bcast_S_S50000 (constant (F := Ideal) S_ .f32 0x00000000#32)) (ix1 p)
      = Scalar.select (Ideal.cmp .ogt (dg (ix1 p)) (Ideal.ofBits .f32 0x00000000#32))
          (Ideal.rsqrt (dg (ix1 p))) (Ideal.ofBits .f32 0x00000000#32) := rfl
  rw [e, Ideal.ofBits_zero_f32]
  exact Cert.NonnegScale.guarded_rsqrt _

/-- A bias reshaped to a row `[1, 128]` reads, at `(0, k)`, the bias at `k`. -/
theorem biasRow128_apply (b : FVec Ideal S128 .f32) (k : Fin 128) :
    shapeCast S1x128 b shapeCasts_S128_S1x128 (ix2 (0 : Fin 1) k) = b (ix1 k) :=
  shapeCast_a_1a_apply b shapeCasts_S128_S1x128 0 k
/-- A bias reshaped to a row `[1, 64]` reads, at `(0, k)`, the bias at `k`. -/
theorem biasRow64_apply (b : FVec Ideal S64 .f32) (k : Fin 64) :
    shapeCast S1x64 b shapeCasts_S64_S1x64 (ix2 (0 : Fin 1) k) = b (ix1 k) :=
  shapeCast_a_1a_apply b shapeCasts_S64_S1x64 0 k

/-! ## Gather, then scatter-add, at an index -/

/-- At the ideal instance the accumulating scatter is the operand plus the exact sum of the updates landing there. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl
/-- A splat of the zero word reads `0` everywhere. -/
theorem zeros_apply {s : Shape} (h : S_.BroadcastsInDim s ![]) (i : s.Idx) :
    broadcastInDim s ![] h (constant (F := Ideal) S_ .f32 0x00000000#32) i = 0 := Ideal.ofBits_zero_f32
/-- Widening a gathered array is the identity at the ideal instance. -/
theorem extf_gather_apply {s si t : Shape} (d : GatherDims s si t) (z : FVec Ideal s .bf16) (idx : IVec si 32) (j : t.Idx) :
    extf .f32 (Host.gather d z idx) bitsLt_bf16_f32 j = Host.gather d z idx j := rfl

theorem wfScatter128 : ScatterDims.WF ⟨2, ![50000, 128]⟩ ⟨2, ![650000, 1]⟩ ⟨2, ![650000, 128]⟩ [1] [0] [0] 1 :=
  scatter_S50000x128_S650000x1_S650000x128_1_0_0_1.wf
theorem wfGather128 : GatherDims.WF ⟨2, ![50000, 128]⟩ ⟨2, ![650000, 1]⟩ ⟨2, ![650000, 128]⟩ [1] [0] [] [0] [] 1 ![1, 128] :=
  gather_S50000x128_S650000x1_S650000x128_1_0_n_n_0_1_1128.wf
theorem wfScatter64 : ScatterDims.WF ⟨2, ![50000, 64]⟩ ⟨2, ![650000, 1]⟩ ⟨2, ![650000, 64]⟩ [1] [0] [0] 1 :=
  scatter_S50000x64_S650000x1_S650000x64_1_0_0_1.wf
theorem wfGather64 : GatherDims.WF ⟨2, ![50000, 64]⟩ ⟨2, ![650000, 1]⟩ ⟨2, ![650000, 64]⟩ [1] [0] [] [0] [] 1 ![1, 64] :=
  gather_S50000x64_S650000x1_S650000x64_1_0_n_n_0_1_164.wf
/-- The printed dimension numbers are the row gather's and the row scatter's. -/
theorem scatter128_eq : scatter_S50000x128_S650000x1_S650000x128_1_0_0_1 = rowScatterDims 50000 650000 128 wfScatter128 := rfl
theorem gather128_eq : gather_S50000x128_S650000x1_S650000x128_1_0_n_n_0_1_1128 = rowGatherDims 50000 650000 128 wfGather128 := rfl
theorem scatter64_eq : scatter_S50000x64_S650000x1_S650000x64_1_0_0_1 = rowScatterDims 50000 650000 64 wfScatter64 := rfl
theorem gather64_eq : gather_S50000x64_S650000x1_S650000x64_1_0_n_n_0_1_164 = rowGatherDims 50000 650000 64 wfGather64 := rfl

/-- Layer 1's summed messages at `(p, k)`. -/
theorem gatherScatter128_apply (z : FVec Ideal S50000x128 .bf16) (r t : IVec S650000 32) (p : Fin 50000) (k : Fin 128) :
    gatherScatter128 (F := Ideal) z r t (ix2 p k)
      = 0 + ∑ e ∈ incoming (N := 50000) (rawCol t) p, z (ix2 (rowOf hN (wrapCol r) e) k) := by
  rw [gatherScatter128, incoming, scatterAdd_ideal, scatter128_eq, rowScatterAdd_apply, zeros_apply]
  refine congrArg (fun s => 0 + s) (Finset.sum_congr rfl fun e _ => ?_)
  rw [extf_gather_apply, gather128_eq, rowGather_apply hN]

/-- Layer 2's summed messages at `(p, q)`. -/
theorem gatherScatter64_apply (z : FVec Ideal S50000x64 .bf16) (r t : IVec S650000 32) (p : Fin 50000) (q : Fin 64) :
    gatherScatter64 (F := Ideal) z r t (ix2 p q)
      = 0 + ∑ e ∈ incoming (N := 50000) (rawCol t) p, z (ix2 (rowOf hN (wrapCol r) e) q) := by
  rw [gatherScatter64, incoming, scatterAdd_ideal, scatter64_eq, rowScatterAdd_apply, zeros_apply]
  refine congrArg (fun s => 0 + s) (Finset.sum_congr rfl fun e _ => ?_)
  rw [extf_gather_apply, gather64_eq, rowGather_apply hN]

end Cert.KernelIdeal.HostValue

end
-- ==== Proof.Region0.lean ====
/-
  The first kernel region, read as one function of the arrays it finds.

  The grid has ten points; point `t` works on rows `5000·t … 5000·t + 4999`. Its body reads the row block `x` of the
  [50000, 128] features, the whole [128, 128] weight `w` and the matching block `d` of the [50000, 1] column, multiplies
  `x · w` into a zero accumulator (at the ideal values: the plain sum over the contracted coordinate, the format changes
  the identity), scales row `p` by `d[p,0]` and stores the result over its whole output block. Every block index is
  `(t, 0)` for the row-blocked arrays and `(0, 0)` for the weight, so what point `t` writes back is block `t` of ONE
  function of the entry arrays, `(Σ_k x[p,k] · w[k,q]) · d[p,0]`, and the ten blocks cover the rows (row `r` lies in block
  `r / 5000`): the output array ends holding that function at every index.
-/
import proofs.«171738_j23192823399146_2_alg».proof.Proof.Gen.KernelIdeal.Frame
import proofs.«171738_j23192823399146_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Region0

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A column `[a, 1]` broadcast along the rows to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[m, k]` by `[k, n]` matrix product into the zero accumulator, read at `(a, b)`, is the sum over the contracted
    coordinate of the products of the entries. -/
theorem matmul_zero_ix2 {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    FloatOps.matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The body's payload at `(p, q)`: `(Σ_k x[p,k] · w[k,q]) · d[p,0]`. -/
theorem pay_apply (x : Vec Ideal S5000x128 .f32) (w : Vec Ideal S128x128 .f32) (d : Vec Ideal S5000x1 .f32)
    (p : Fin 5000) (q : Fin 128) :
    k0_pay1 x w d (ix2 p q) = (∑ k : Fin 128, x (ix2 p k) * w (ix2 k q)) * d (ix2 p (0 : Fin 1)) := by
  unfold k0_pay1
  simp only [shapeCast_self]
  rw [truncf_apply, mulf_apply, broadcastTo_a1_ab_apply]
  refine congrArg (· * d (ix2 p (0 : Fin 1))) ?_
  exact matmul_zero_ix2 _ (truncf .bf16 x bitsLt_bf16_f32) (truncf .bf16 w bitsLt_bf16_f32) p q

/-- The same at an index of the block. -/
theorem pay_at (x : Vec Ideal S5000x128 .f32) (w : Vec Ideal S128x128 .f32) (d : Vec Ideal S5000x1 .f32) (j : S5000x128.Idx) :
    k0_pay1 x w d j = (∑ k : Fin 128, x (ix2 (j 0) k) * w (ix2 k (j 1))) * d (ix2 (j 0) (0 : Fin 1)) := by
  obtain ⟨p, q, rfl⟩ : ∃ (p : Fin 5000) (q : Fin 128), j = ix2 p q := ⟨j 0, j 1, eq_ix2 j⟩
  exact pay_apply x w d p q

/-- The whole-array function at an index of the array. -/
theorem scaledMatmul_at (X : Cert.GraphConv.Mat 50000 128) (W : Cert.GraphConv.Mat 128 128) (D : Cert.GraphConv.Mat 50000 1)
    (i : S50000x128.Idx) :
    Cert.GraphConv.scaledMatmul X W D i
      = (∑ k : Fin 128, X (ix2 (i 0) k) * W (ix2 k (i 1))) * D (ix2 (i 0) (0 : Fin 1)) := rfl

/-- The printed index maps over the ten grid points: the row-blocked windows sit at block row `t`, column block `0`;
    the weight window at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What grid point `t` writes back is block `t` of the whole-array function of the region-entry arrays. -/
theorem flushed_eq (c : Dev nD) (t : Fin cfg0.N) :
    (dat0 (F := Ideal) V c).flushed 3 t
      = ((cfg0.win 3).blk t).view.read (Elt Ideal) (Cert.GraphConv.scaledMatmul (V c main_arg0) (V c main_arg2) (V c main_v15)) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e0, e1, e2, e3, e4, e5, e6, e7⟩ := idx_facts t
  funext j
  refine (pay_at _ _ _ j).trans ?_
  refine Eq.trans ?_ (scaledMatmul_at _ _ _ (((cfg0.win 3).blk t).view.emb j)).symm
  have h0 : ∀ k : Fin 128, ((cfg0.win 0).blk t).view.emb (ix2 (j 0) k) = ix2 ((((cfg0.win 3).blk t).view.emb j) 0) k := by
    intro k; funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have h1 : ∀ k : Fin 128, ((cfg0.win 1).blk t).view.emb (ix2 k (j 1)) = ix2 k ((((cfg0.win 3).blk t).view.emb j) 1) := by
    intro k; funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have h2 : ((cfg0.win 2).blk t).view.emb (ix2 (j 0) (0 : Fin 1)) = ix2 ((((cfg0.win 3).blk t).view.emb j) 0) (0 : Fin 1) := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega
  have key : ∀ (X : S50000x128.Idx → EReal) (W : S128x128.Idx → EReal) (D : S50000x1.Idx → EReal),
      (∑ k : Fin 128, X (((cfg0.win 0).blk t).view.emb (ix2 (j 0) k)) * W (((cfg0.win 1).blk t).view.emb (ix2 k (j 1))))
          * D (((cfg0.win 2).blk t).view.emb (ix2 (j 0) (0 : Fin 1)))
        = (∑ k : Fin 128, X (ix2 ((((cfg0.win 3).blk t).view.emb j) 0) k) * W (ix2 k ((((cfg0.win 3).blk t).view.emb j) 1)))
          * D (ix2 ((((cfg0.win 3).blk t).view.emb j) 0) (0 : Fin 1)) := by
    intro X W D
    rw [h2]
    refine congrArg (· * D _) (Finset.sum_congr rfl fun k _ => ?_)
    rw [h0 k, h1 k]; rfl
  exact key (V c main_arg0) (V c main_arg2) (V c main_v15)

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- Row `r` of the array lies in the block of grid point `r / 5000`. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, e6, e7⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e7]; omega

/-- The output array after the region: `(Σ_k x[p,k] · w[k,q]) · d[p,0]` of the region-entry arrays, at every index. -/
theorem final (c : Dev nD) :
    (dat0 (F := Ideal) V c).arrAt 3 cfg0.N = Cert.GraphConv.scaledMatmul (V c main_arg0) (V c main_arg2) (V c main_v15) :=
  (dat0 (F := Ideal) V c).arrAt_eq_of_cover 3 (Cert.GraphConv.scaledMatmul (V c main_arg0) (V c main_arg2) (V c main_v15))
    (fun t _ => flushed_eq V c t) cover

end Cert.KernelIdeal.Region0

end
-- ==== Proof.Region1.lean ====
/-
  The second kernel region, read as one function of the arrays it finds.

  The grid has ten points; point `t` works on rows `5000·t … 5000·t + 4999`. Its body reads the row block `a` of the
  [50000, 128] summed messages, the matching block `d` of the [50000, 1] column (loaded twice), the whole [1, 128] bias
  `b` and the whole [128, 64] weight `w`; it forms the hidden features `h[p,k] = max (a[p,k] · d[p,0] + b[0,k]) 0`,
  multiplies `h · w` into a zero accumulator (at the ideal values: the plain sum over the contracted coordinate, the
  format changes the identity), scales row `p` by `d[p,0]` and stores the result over its whole output block. Every
  block index is `(t, 0)` for the row-blocked arrays and `(0, 0)` for the bias and the weight, so what point `t` writes
  back is block `t` of ONE function of the entry arrays, and the ten blocks cover the rows (row `r` lies in block
  `r / 5000`): the output array ends holding that function at every index.
-/
import proofs.«171738_j23192823399146_2_alg».proof.Proof.Gen.KernelIdeal.Frame
import proofs.«171738_j23192823399146_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Region1

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A column `[a, 1]` broadcast along the rows to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[m, k]` by `[k, n]` matrix product into the zero accumulator, read at `(a, b)`, is the sum over the contracted
    coordinate of the products of the entries. -/
theorem matmul_zero_ix2 {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    FloatOps.matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The body's payload at `(p, q)`: the hidden features `max (a[p,k] · d[p,0] + b[0,k]) 0` times `w`, row `p` scaled by `d'[p,0]`
    (the body loads the column block twice: `d` and `d'`). -/
theorem pay_apply (a : Vec Ideal S5000x128 .f32) (d : Vec Ideal S5000x1 .f32) (b : Vec Ideal S1x128 .f32)
    (w : Vec Ideal S128x64 .f32) (d' : Vec Ideal S5000x1 .f32) (p : Fin 5000) (q : Fin 64) :
    k1_pay1 a d b w d' (ix2 p q)
      = (∑ k : Fin 128, max (a (ix2 p k) * d (ix2 p (0 : Fin 1)) + b (ix2 (0 : Fin 1) k)) 0 * w (ix2 k q)) * d' (ix2 p (0 : Fin 1)) := by
  unfold k1_pay1
  simp only [shapeCast_self]
  rw [truncf_apply, mulf_apply, broadcastTo_a1_ab_apply]
  refine congrArg (· * d' (ix2 p (0 : Fin 1))) ?_
  refine (matmul_zero_ix2 _ _ _ p q).trans ?_
  refine Finset.sum_congr rfl fun k _ => ?_
  rw [truncf_apply, truncf_apply, maximumf_apply, addf_apply, mulf_apply, broadcastTo_a1_ab_apply, broadcastTo_1b_ab_apply,
    broadcast_apply]
  show max _ (Ideal.ofBits .f32 0x00000000#32) * _ = _
  rw [Ideal.ofBits_zero_f32]

/-- The same at an index of the block. -/
theorem pay_at (a : Vec Ideal S5000x128 .f32) (d : Vec Ideal S5000x1 .f32) (b : Vec Ideal S1x128 .f32)
    (w : Vec Ideal S128x64 .f32) (d' : Vec Ideal S5000x1 .f32) (j : S5000x64.Idx) :
    k1_pay1 a d b w d' j
      = (∑ k : Fin 128, max (a (ix2 (j 0) k) * d (ix2 (j 0) (0 : Fin 1)) + b (ix2 (0 : Fin 1) k)) 0 * w (ix2 k (j 1)))
        * d' (ix2 (j 0) (0 : Fin 1)) := by
  obtain ⟨p, q, rfl⟩ : ∃ (p : Fin 5000) (q : Fin 64), j = ix2 p q := ⟨j 0, j 1, eq_ix2 j⟩
  exact pay_apply a d b w d' p q

/-- The whole-array function at an index of the array. -/
theorem hiddenScaledMatmul_at (A : Cert.GraphConv.Mat 50000 128) (D : Cert.GraphConv.Mat 50000 1) (B : Cert.GraphConv.Mat 1 128)
    (W : Cert.GraphConv.Mat 128 64) (i : S50000x64.Idx) :
    Cert.GraphConv.hiddenScaledMatmul A D B W i
      = (∑ k : Fin 128, max (A (ix2 (i 0) k) * D (ix2 (i 0) (0 : Fin 1)) + B (ix2 (0 : Fin 1) k)) 0 * W (ix2 k (i 1)))
        * D (ix2 (i 0) (0 : Fin 1)) := rfl

/-- The printed index maps over the ten grid points: the row-blocked windows sit at block row `t`, column block `0`;
    the bias and weight windows at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What grid point `t` writes back is block `t` of the whole-array function of the region-entry arrays. -/
theorem flushed_eq (c : Dev nD) (t : Fin cfg1.N) :
    (dat1 (F := Ideal) V c).flushed 4 t
      = ((cfg1.win 4).blk t).view.read (Elt Ideal)
          (Cert.GraphConv.hiddenScaledMatmul (V c main_v29) (V c main_v15) (V c main_v16) (V c main_arg4)) := by
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S5000x1) hz, View.ld_unit_zero (S := S1x128) hz,
    View.ld_unit_zero (S := S128x64) hz]
  obtain ⟨e0, e1, e2, e3, e4, e5, e6, e7, e8, e9⟩ := idx_facts t
  funext j
  refine (pay_at _ _ _ _ _ j).trans ?_
  refine Eq.trans ?_ (hiddenScaledMatmul_at _ _ _ _ (((cfg1.win 4).blk t).view.emb j)).symm
  have h0 : ∀ k : Fin 128, ((cfg1.win 0).blk t).view.emb (ix2 (j 0) k) = ix2 ((((cfg1.win 4).blk t).view.emb j) 0) k := by
    intro k; funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  have h1 : ((cfg1.win 1).blk t).view.emb (ix2 (j 0) (0 : Fin 1)) = ix2 ((((cfg1.win 4).blk t).view.emb j) 0) (0 : Fin 1) := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  have h2 : ∀ k : Fin 128, ((cfg1.win 2).blk t).view.emb (ix2 (0 : Fin 1) k) = ix2 (0 : Fin 1) k := by
    intro k; funext a; apply Fin.ext
    match a with
    | ⟨0, _⟩ => show win1_2.index t (0 : Fin 2) * 1 + 1 * 0 = 0; omega
    | ⟨1, _⟩ => show win1_2.index t (1 : Fin 2) * 128 + 1 * k.val = k.val; omega
  have h3 : ∀ k : Fin 128, ((cfg1.win 3).blk t).view.emb (ix2 k (j 1)) = ix2 k ((((cfg1.win 4).blk t).view.emb j) 1) := by
    intro k; funext a; apply Fin.ext
    match a with
    | ⟨0, _⟩ => show win1_3.index t (0 : Fin 2) * 128 + 1 * k.val = k.val; omega
    | ⟨1, _⟩ => show win1_3.index t (1 : Fin 2) * 64 + 1 * (j 1).val = win1_4.index t (1 : Fin 2) * 64 + 1 * (j 1).val; omega
  have key : ∀ (A : S50000x128.Idx → EReal) (D : S50000x1.Idx → EReal) (B : S1x128.Idx → EReal) (W : S128x64.Idx → EReal),
      (∑ k : Fin 128, max (A (((cfg1.win 0).blk t).view.emb (ix2 (j 0) k)) * D (((cfg1.win 1).blk t).view.emb (ix2 (j 0) (0 : Fin 1)))
            + B (((cfg1.win 2).blk t).view.emb (ix2 (0 : Fin 1) k))) 0 * W (((cfg1.win 3).blk t).view.emb (ix2 k (j 1))))
          * D (((cfg1.win 1).blk t).view.emb (ix2 (j 0) (0 : Fin 1)))
        = (∑ k : Fin 128, max (A (ix2 ((((cfg1.win 4).blk t).view.emb j) 0) k) * D (ix2 ((((cfg1.win 4).blk t).view.emb j) 0) (0 : Fin 1))
            + B (ix2 (0 : Fin 1) k)) 0 * W (ix2 k ((((cfg1.win 4).blk t).view.emb j) 1)))
          * D (ix2 ((((cfg1.win 4).blk t).view.emb j) 0) (0 : Fin 1)) := by
    intro A D B W
    rw [h1]
    refine congrArg (· * D _) (Finset.sum_congr rfl fun k _ => ?_)
    rw [h0 k, h2 k, h3 k]; rfl
  exact key (V c main_v29) (V c main_v15) (V c main_v16) (V c main_arg4)

/-- An index of the array is in point `t`'s block iff each coordinate is in the block's range on its axis. -/
theorem mem_blk (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v30).slice (win1_4.rect t)).set ↔ _
  rw [View.set_slice_whole, Rect.mem_set_unit]
  exact Iff.rfl

/-- Row `r` of the array lies in the block of grid point `r / 5000`. -/
theorem cover (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨-, -, -, -, -, -, -, -, e8, e9⟩ := idx_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win1_4.index ⟨(i 0).val / 5000, ht⟩ (1 : Fin 2) * 64 ≤ (i 1).val ∧ (i 1).val < win1_4.index ⟨(i 0).val / 5000, ht⟩ (1 : Fin 2) * 64 + 64
    rw [e9]; omega

/-- The output array after the region: `(Σ_k max (a[p,k] · d[p,0] + b[0,k]) 0 · w[k,q]) · d[p,0]` of the region-entry arrays,
    at every index. -/
theorem final (c : Dev nD) :
    (dat1 (F := Ideal) V c).arrAt 4 cfg1.N
      = Cert.GraphConv.hiddenScaledMatmul (V c main_v29) (V c main_v15) (V c main_v16) (V c main_arg4) :=
  (dat1 (F := Ideal) V c).arrAt_eq_of_cover 4
    (Cert.GraphConv.hiddenScaledMatmul (V c main_v29) (V c main_v15) (V c main_v16) (V c main_arg4))
    (fun t _ => flushed_eq V c t) cover

end Cert.KernelIdeal.Region1

end
-- ==== Proof.Region2.lean ====
/-
  The third kernel region, read as one function of the arrays it finds.

  The grid has ten points; point `t` works on rows `5000·t … 5000·t + 4999`. Its body reads the row block `a` of the
  [50000, 64] input, the matching block `d` of the [50000, 1] column and the whole [1, 64] bias `b`, and stores
  `a[p,q] · d[p,0] + b[0,q]` over its whole output block. Since every block index is `(t, 0)` for the row-blocked arrays
  and `(0, 0)` for the bias, what point `t` writes back is block `t` of ONE function of the entry arrays, and the ten
  blocks cover the rows (row `r` lies in block `r / 5000`), so the output array ends holding that function at every index.
-/
import proofs.«171738_j23192823399146_2_alg».proof.Proof.Gen.KernelIdeal.Frame
import proofs.«171738_j23192823399146_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Region2

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A column `[a, 1]` broadcast along the rows to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at `(p, q)`: `a[p,q] · d[p,0] + b[0,q]`. -/
theorem pay_apply (a : Vec Ideal S5000x64 .f32) (d : Vec Ideal S5000x1 .f32) (b : Vec Ideal S1x64 .f32)
    (p : Fin 5000) (q : Fin 64) :
    k2_pay1 a d b (ix2 p q) = a (ix2 p q) * d (ix2 p (0 : Fin 1)) + b (ix2 (0 : Fin 1) q) := by
  unfold k2_pay1
  simp only [shapeCast_self]
  rw [addf_apply, mulf_apply, broadcastTo_a1_ab_apply, broadcastTo_1b_ab_apply]

/-- The same at an index of the block. -/
theorem pay_at (a : Vec Ideal S5000x64 .f32) (d : Vec Ideal S5000x1 .f32) (b : Vec Ideal S1x64 .f32) (j : S5000x64.Idx) :
    k2_pay1 a d b j = a j * d (ix2 (j 0) (0 : Fin 1)) + b (ix2 (0 : Fin 1) (j 1)) := by
  obtain ⟨p, q, rfl⟩ : ∃ (p : Fin 5000) (q : Fin 64), j = ix2 p q := ⟨j 0, j 1, eq_ix2 j⟩
  exact pay_apply a d b p q

/-- The whole-array function at an index of the array. -/
theorem scaleBias_at (A : Cert.GraphConv.Mat 50000 64) (D : Cert.GraphConv.Mat 50000 1) (B : Cert.GraphConv.Mat 1 64) (i : S50000x64.Idx) :
    Cert.GraphConv.scaleBias A D B i = A i * D (ix2 (i 0) (0 : Fin 1)) + B (ix2 (0 : Fin 1) (i 1)) := by
  obtain ⟨p, q, rfl⟩ : ∃ (p : Fin 50000) (q : Fin 64), i = ix2 p q := ⟨i 0, i 1, eq_ix2 i⟩
  rfl

/-- The printed index maps over the ten grid points: the row-blocked windows sit at block row `t`, column block `0`;
    the bias window at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What grid point `t` writes back is block `t` of the whole-array function of the region-entry arrays. -/
theorem flushed_eq (c : Dev nD) (t : Fin cfg2.N) :
    (dat2 (F := Ideal) V c).flushed 3 t
      = ((cfg2.win 3).blk t).view.read (Elt Ideal) (Cert.GraphConv.scaleBias (V c main_v41) (V c main_v15) (V c main_v17)) := by
  show (cfg2.win 3).cut (grid2.coords t) ((dat2 (F := Ideal) V c).after 3 t) = _
  rw [after2_3]
  unfold out2_3
  rw [View.canon_unit_zero hz]
  simp only [View.ld_unit_zero (S := S5000x64) hz, View.ld_unit_zero (S := S5000x1) hz, View.ld_unit_zero (S := S1x64) hz]
  obtain ⟨e0, e1, e2, e3, e4, e5, e6, e7⟩ := idx_facts t
  funext j
  refine (pay_at _ _ _ j).trans ?_
  refine Eq.trans ?_ (scaleBias_at _ _ _ (((cfg2.win 3).blk t).view.emb j)).symm
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * (j 1).val = win2_3.index t (1 : Fin 2) * 64 + 1 * (j 1).val; omega
  have h1 : ((cfg2.win 1).blk t).view.emb (ix2 (j 0) (0 : Fin 1)) = ix2 ((((cfg2.win 3).blk t).view.emb j) 0) (0 : Fin 1) := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 1 + 1 * 0 = 0; omega
  have h2 : ((cfg2.win 2).blk t).view.emb (ix2 (0 : Fin 1) (j 1)) = ix2 (0 : Fin 1) ((((cfg2.win 3).blk t).view.emb j) 1) := by
    funext a; apply Fin.ext
    match a with
    | ⟨0, _⟩ => show win2_2.index t (0 : Fin 2) * 1 + 1 * 0 = 0; omega
    | ⟨1, _⟩ => show win2_2.index t (1 : Fin 2) * 64 + 1 * (j 1).val = win2_3.index t (1 : Fin 2) * 64 + 1 * (j 1).val; omega
  have key : ∀ (A : S50000x64.Idx → EReal) (D : S50000x1.Idx → EReal) (B : S1x64.Idx → EReal),
      A (((cfg2.win 0).blk t).view.emb j) * D (((cfg2.win 1).blk t).view.emb (ix2 (j 0) (0 : Fin 1)))
          + B (((cfg2.win 2).blk t).view.emb (ix2 (0 : Fin 1) (j 1)))
        = A (((cfg2.win 3).blk t).view.emb j) * D (ix2 ((((cfg2.win 3).blk t).view.emb j) 0) (0 : Fin 1))
          + B (ix2 (0 : Fin 1) ((((cfg2.win 3).blk t).view.emb j) 1)) := by
    intro A D B; rw [h0, h1, h2]; rfl
  exact key (V c main_v41) (V c main_v15) (V c main_v17)

/-- An index of the array is in point `t`'s block iff each coordinate is in the block's range on its axis. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v42).slice (win2_3.rect t)).set ↔ _
  rw [View.set_slice_whole, Rect.mem_set_unit]
  exact Iff.rfl

/-- Row `r` of the array lies in the block of grid point `r / 5000`. -/
theorem cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  have ht : (i 0).val / 5000 < cfg2.N := by rw [hN]; omega
  obtain ⟨-, -, -, -, -, -, e6, e7⟩ := idx_facts ⟨(i 0).val / 5000, ht⟩
  refine ⟨⟨(i 0).val / 5000, ht⟩, flush2_3 _, ?_⟩
  rw [mem_blk]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win2_3.index ⟨(i 0).val / 5000, ht⟩ (1 : Fin 2) * 64 ≤ (i 1).val ∧ (i 1).val < win2_3.index ⟨(i 0).val / 5000, ht⟩ (1 : Fin 2) * 64 + 64
    rw [e7]; omega

/-- The output array after the region: `a[p,q] · d[p,0] + b[0,q]` of the region-entry arrays, at every index. -/
theorem final (c : Dev nD) :
    (dat2 (F := Ideal) V c).arrAt 3 cfg2.N = Cert.GraphConv.scaleBias (V c main_v41) (V c main_v15) (V c main_v17) :=
  (dat2 (F := Ideal) V c).arrAt_eq_of_cover 3 (Cert.GraphConv.scaleBias (V c main_v41) (V c main_v15) (V c main_v17))
    (fun t _ => flushed_eq V c t) cover

end Cert.KernelIdeal.Region2

end
-- ==== Proof.KernelValue.lean ====
/-
  The kernel program's result as the factored two-layer network of the specification.

  The third region leaves `a₂ · d + b₂` of its inputs; its input `a₂` is the second layer's summed messages, gathered from the
  second region's output `(max (a₁ · d + b₁) 0 · W₂) · d`; the second region's input `a₁` is the first layer's summed messages,
  gathered from the first region's output `(x · W₁) · d`. Read at an index, with the scaling column and the bias rows read
  at an index too, this is `twoLayerFactored`: each layer scales the rows before the gather and the sum after it.
-/
import proofs.«171738_j23192823399146_2_alg».proof.Proof.KernelMath
import proofs.«171738_j23192823399146_2_alg».proof.Proof.Region0
import proofs.«171738_j23192823399146_2_alg».proof.Proof.Region1
import proofs.«171738_j23192823399146_2_alg».proof.Proof.Region2

set_option maxRecDepth 16384

noncomputable section

open scoped BigOperators

namespace Cert.KernelIdeal.HostValue

open Idealize.ShloMosaic Idealize.ShloMosaic.TcCoe Idealize.SL.Sem Idealize.ShloMosaic.ValueIdx Cert.KernelIdeal Cert.KernelIdeal.Gen
open Cert.RowGatherScatter Cert.GraphConv

variable (m : (ℓ : Loc nD τ sig) → Buf (Elt Ideal) ℓ) (ρ : Dev nD → PrngReg) (c : Dev nD)

/-- The features, weights and biases as launched. -/
abbrev feats : FVec Ideal S50000x128 .f32 := m ((c.tc : Thread nD τ).loc main_arg0)
abbrev weight1 : FVec Ideal S128x128 .f32 := m ((c.tc : Thread nD τ).loc main_arg2)
abbrev bias1 : FVec Ideal S128 .f32 := m ((c.tc : Thread nD τ).loc main_arg3)
abbrev weight2 : FVec Ideal S128x64 .f32 := m ((c.tc : Thread nD τ).loc main_arg4)
abbrev bias2 : FVec Ideal S64 .f32 := m ((c.tc : Thread nD τ).loc main_arg5)

/-- THE RESULT ARRAY as the composition of the three regions' closed forms and the two gather/scatter-adds. -/
theorem result_eq : (dat2 (F := Ideal) (V7 m ρ) c).arrAt 3 cfg2.N
    = scaleBias
        (gatherScatter64 (F := Ideal)
          (hiddenScaledMatmul
            (gatherScatter128 (F := Ideal) (scaledMatmul (feats m c) (weight1 m c) (invSqrtDegCol (F := Ideal) (edges m c)))
              (srcWords (edges m c)) (tgtWords (edges m c)))
            (invSqrtDegCol (F := Ideal) (edges m c))
            (shapeCast S1x128 (bias1 m c) shapeCasts_S128_S1x128)
            (weight2 m c))
          (srcWords (edges m c)) (tgtWords (edges m c)))
        (invSqrtDegCol (F := Ideal) (edges m c))
        (shapeCast S1x64 (bias2 m c) shapeCasts_S64_S1x64) := by
  rw [Cert.KernelIdeal.Region2.final, V7_v41, V7_v15, V7_v17, Cert.KernelIdeal.Region1.final, V5_v29, V5_v15, V5_v16, V5_arg4,
    Cert.KernelIdeal.Region0.final, V3_arg0, V3_arg2, V3_v15]

section AtAnIndex
variable (x : Mat 50000 128) (w1 : Mat 128 128) (b1 : Vect 128) (w2 : Mat 128 64) (b2 : Vect 64)
  (x1 : IVec S2x600000 32)

/-- The first region's output at `(p, k)`: the product's element times the scaling factor at `p`. -/
theorem scaled_apply (p : Fin 50000) (k : Fin 128) :
    scaledMatmul x w1 (invSqrtDegCol (F := Ideal) x1) (ix2 p k)
      = matmul x w1 (ix2 p k) * invSqrtDeg (F := Ideal) x1 (ix1 p) := by
  rw [scaledMatmul_apply, invSqrtDegCol_apply]
  rfl

/-- The second region's pre-activation at `(p, k)` is the first layer, factored. -/
theorem preact_apply (p : Fin 50000) (k : Fin 128) :
    gatherScatter128 (F := Ideal) (scaledMatmul x w1 (invSqrtDegCol (F := Ideal) x1)) (srcWords x1) (tgtWords x1) (ix2 p k)
        * invSqrtDegCol (F := Ideal) x1 (ix2 p (0 : Fin 1))
        + shapeCast S1x128 b1 shapeCasts_S128_S1x128 (ix2 (0 : Fin 1) k)
      = layerFactoredAt hN (matmul x w1) (invSqrtDeg (F := Ideal) x1) (wrapCol (srcWords x1)) (rawCol (tgtWords x1))
          (fun k => b1 (ix1 k)) p k := by
  rw [gatherScatter128_apply, invSqrtDegCol_apply, biasRow128_apply, layerFactoredAt,
    Finset.sum_congr rfl fun e _ => scaled_apply x w1 x1 (rowOf hN (wrapCol (srcWords x1)) e) k]

/-- The second region's output at `(p, q)`: the rectified first layer times the second weight, times the scaling factor. -/
theorem hidden_apply (p : Fin 50000) (q : Fin 64) :
    hiddenScaledMatmul
        (gatherScatter128 (F := Ideal) (scaledMatmul x w1 (invSqrtDegCol (F := Ideal) x1)) (srcWords x1) (tgtWords x1))
        (invSqrtDegCol (F := Ideal) x1) (shapeCast S1x128 b1 shapeCasts_S128_S1x128) w2 (ix2 p q)
      = rectifiedTimes (layerFactoredAt hN (matmul x w1) (invSqrtDeg (F := Ideal) x1) (wrapCol (srcWords x1)) (rawCol (tgtWords x1))
          (fun k => b1 (ix1 k))) w2 (ix2 p q) * invSqrtDeg (F := Ideal) x1 (ix1 p) := by
  rw [hiddenScaledMatmul_apply]
  have hs : ∀ k : Fin 128,
      max (gatherScatter128 (F := Ideal) (scaledMatmul x w1 (invSqrtDegCol (F := Ideal) x1)) (srcWords x1) (tgtWords x1) (ix2 p k)
            * invSqrtDegCol (F := Ideal) x1 (ix2 p (0 : Fin 1)) + shapeCast S1x128 b1 shapeCasts_S128_S1x128 (ix2 (0 : Fin 1) k)) 0
          * w2 (ix2 k q)
        = max (layerFactoredAt hN (matmul x w1) (invSqrtDeg (F := Ideal) x1) (wrapCol (srcWords x1)) (rawCol (tgtWords x1))
            (fun k => b1 (ix1 k)) p k) 0 * w2 (ix2 k q) := fun k => by rw [preact_apply]
  rw [Finset.sum_congr rfl fun k _ => hs k, invSqrtDegCol_apply]
  rfl

/-- The whole composition at `(p, q)`. -/
theorem composed_apply (p : Fin 50000) (q : Fin 64) :
    scaleBias
        (gatherScatter64 (F := Ideal)
          (hiddenScaledMatmul
            (gatherScatter128 (F := Ideal) (scaledMatmul x w1 (invSqrtDegCol (F := Ideal) x1)) (srcWords x1) (tgtWords x1))
            (invSqrtDegCol (F := Ideal) x1) (shapeCast S1x128 b1 shapeCasts_S128_S1x128) w2)
          (srcWords x1) (tgtWords x1))
        (invSqrtDegCol (F := Ideal) x1) (shapeCast S1x64 b2 shapeCasts_S64_S1x64) (ix2 p q)
      = twoLayerFactored hN x w1 (fun k => b1 (ix1 k)) w2 (fun k => b2 (ix1 k)) (invSqrtDeg (F := Ideal) x1)
          (wrapCol (srcWords x1)) (rawCol (tgtWords x1)) p q := by
  rw [scaleBias_apply, gatherScatter64_apply, invSqrtDegCol_apply, biasRow64_apply, twoLayerFactored, layerFactoredAt,
    Finset.sum_congr rfl fun e _ => hidden_apply x w1 b1 w2 x1 (rowOf hN (wrapCol (srcWords x1)) e) q]

end AtAnIndex

/-- THE RESULT AT `(p, q)` is the factored two-layer network of the launched arguments. -/
theorem result_apply (p : Fin 50000) (q : Fin 64) :
    (dat2 (F := Ideal) (V7 m ρ) c).arrAt 3 cfg2.N (ix2 p q)
      = twoLayerFactored hN (feats m c) (weight1 m c) (fun k => bias1 m c (ix1 k)) (weight2 m c) (fun k => bias2 m c (ix1 k))
          (invSqrtDeg (F := Ideal) (edges m c)) (wrapCol (srcWords (edges m c))) (rawCol (tgtWords (edges m c))) p q := by
  rw [result_eq]
  exact composed_apply _ _ _ _ _ _ p q

end Cert.KernelIdeal.HostValue

end
-- ==== Proof.RefValue.lean ====
/-
  The reference's result, read index by index.

  The reference is a two-layer graph convolution. One layer takes features `y : [N, C]`, gathers row `y[src e]` for every
  edge `e`, multiplies it by the edge weight `d[src e] · d[tgt e]` (`d` the guarded inverse square root of the degree), adds
  the products into the rows their target words name, and adds a bias. Between the layers it rectifies and multiplies by the
  second weight matrix.

  Read at an element `(p, q)`:
  * a scatter-add of rows is the operand's element plus the sum, over the edges whose target word read signed is `p`, of the
    update's element `(e, q)`; the operand is the zero matrix;
  * a gather of rows (or of a vector's elements) at an index column reads the row the index word selects after clamping;
  * a matrix product is the sum over the contracted axis; the rectifier is `max · 0`; a bias broadcast reads `b[q]`.
  Chaining these, the first layer before the rectifier is the per-edge layer on `x · W₁`, the second product is the rectified
  first layer times `W₂`, and the result is the per-edge layer on that.

  The second layer recomputes the degree vector and the three index columns from the same argument by the same operations,
  so they are equal to the first layer's, and the result is stated on the first layer's four.
-/
import proofs.«171738_j23192823399146_2_alg».proof.Proof.RefReadP
import proofs.«171738_j23192823399146_2_alg».proof.Proof.Spec
import Idealize.ShloMosaic.PureOps.Ideal.Laws
import Idealize.ShloMosaic.Lib.ValueIdx

noncomputable section

open scoped BigOperators

namespace Cert.ReferenceIdeal.RefValue

open Idealize.ShloMosaic Idealize.ShloMosaic.TcCoe Idealize.SL.Sem Idealize.ShloMosaic.ValueIdx Cert.ReferenceIdeal Cert.ReferenceIdeal.Gen Cert.ReferenceIdeal.ReadP
open Cert.RowGatherScatter Cert.GraphConv

/-! ## The second layer recomputes the first layer's index columns and degree vector -/

section Copies
variable {F : FTy → Type} [FloatOps F]
variable (x1 : (⟨S2x600000, .i32⟩ : BufTy).Contents (Elt F))

theorem v49_eq : val_main_v49 (F := F) = val_main_v5 (F := F) := rfl
theorem v50_eq : val_main_v50 (F := F) x1 = val_main_v6 (F := F) x1 := rfl
theorem v51_eq : val_main_v51 (F := F) x1 = val_main_v7 (F := F) x1 := rfl
theorem v54_eq : val_main_v54 (F := F) x1 = val_main_v10 (F := F) x1 := rfl
theorem v42_eq : val_main_v42 (F := F) x1 = val_main_v10 (F := F) x1 := rfl
theorem v86_eq : val_main_v86 (F := F) x1 = val_main_v10 (F := F) x1 := rfl
theorem v36_eq : val_main_v36 (F := F) x1 = val_main_v21 (F := F) x1 := rfl
theorem v65_eq : val_main_v65 (F := F) x1 = val_main_v21 (F := F) x1 := rfl
theorem v80_eq : val_main_v80 (F := F) x1 = val_main_v21 (F := F) x1 := rfl
theorem v72_eq : val_main_v72 (F := F) x1 = val_main_v28 (F := F) x1 := rfl
theorem v55_eq : val_main_v55 (F := F) x1 = val_main_v11 (F := F) x1 := rfl
theorem v59_eq : val_main_v59 (F := F) x1 = val_main_v15 (F := F) x1 := rfl

end Copies

/-! ## The printed dimension records are the row / vector gather and row scatter of the library module -/

theorem gatherVec_dims : gather_S50000_S650000x1_S650000_n_0_n_n_0_1_1
    = vecGatherDims 50000 650000 Facts₀.gather_S50000_S650000x1_S650000_n_0_n_n_0_1_1_wf := rfl
theorem gatherRow128_dims : gather_S50000x128_S650000x1_S650000x128_1_0_n_n_0_1_1128
    = rowGatherDims 50000 650000 128 Facts₀.gather_S50000x128_S650000x1_S650000x128_1_0_n_n_0_1_1128_wf := rfl
theorem gatherRow64_dims : gather_S50000x64_S650000x1_S650000x64_1_0_n_n_0_1_164
    = rowGatherDims 50000 650000 64 Facts₀.gather_S50000x64_S650000x1_S650000x64_1_0_n_n_0_1_164_wf := rfl
theorem scatterRow128_dims : scatter_S50000x128_S650000x1_S650000x128_1_0_0_1
    = rowScatterDims 50000 650000 128 Facts₀.scatter_S50000x128_S650000x1_S650000x128_1_0_0_1_wf := rfl
theorem scatterRow64_dims : scatter_S50000x64_S650000x1_S650000x64_1_0_0_1
    = rowScatterDims 50000 650000 64 Facts₀.scatter_S50000x64_S650000x1_S650000x64_1_0_0_1_wf := rfl

/-- The number of nodes is positive. -/
theorem nodes_pos : 0 < 50000 := by decide

section Reads
variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-! ### The gathers, read at an edge -/

/-- Second layer: the degree factor gathered at the source column. -/
theorem v66_apply (e : Fin 650000) :
    val_main_v66 (F := Ideal) x1 (ix1 e)
      = val_main_v59 (F := Ideal) x1 (ix1 (rowOf (N := 50000) nodes_pos (val_main_v65 (F := Ideal) x1) e)) := by
  unfold val_main_v66
  rw [gatherVec_dims]
  exact vecGather_apply nodes_pos _ _ _ e
/-- Second layer: the degree factor gathered at the wrapped target column. -/
theorem v73_apply (e : Fin 650000) :
    val_main_v73 (F := Ideal) x1 (ix1 e)
      = val_main_v59 (F := Ideal) x1 (ix1 (rowOf (N := 50000) nodes_pos (val_main_v72 (F := Ideal) x1) e)) := by
  unfold val_main_v73
  rw [gatherVec_dims]
  exact vecGather_apply nodes_pos _ _ _ e
/-- Second layer: the rows of the features gathered at the source column. -/
theorem v81_apply (e : Fin 650000) (q : Fin 64) :
    val_main_v81 (F := Ideal) x0 x1 x2 x3 x4 (ix2 e q)
      = val_main_v48 (F := Ideal) x0 x1 x2 x3 x4 (ix2 (rowOf (N := 50000) nodes_pos (val_main_v80 (F := Ideal) x1) e) q) := by
  unfold val_main_v81
  rw [gatherRow64_dims]
  exact rowGather_apply nodes_pos _ _ _ e q
/-- First layer: the degree factor gathered at the source column. -/
theorem v22_apply (e : Fin 650000) :
    val_main_v22 (F := Ideal) x1 (ix1 e)
      = val_main_v15 (F := Ideal) x1 (ix1 (rowOf (N := 50000) nodes_pos (val_main_v21 (F := Ideal) x1) e)) := by
  unfold val_main_v22
  rw [gatherVec_dims]
  exact vecGather_apply nodes_pos _ _ _ e
/-- First layer: the degree factor gathered at the wrapped target column. -/
theorem v29_apply (e : Fin 650000) :
    val_main_v29 (F := Ideal) x1 (ix1 e)
      = val_main_v15 (F := Ideal) x1 (ix1 (rowOf (N := 50000) nodes_pos (val_main_v28 (F := Ideal) x1) e)) := by
  unfold val_main_v29
  rw [gatherVec_dims]
  exact vecGather_apply nodes_pos _ _ _ e
/-- First layer: the rows of the features gathered at the source column. -/
theorem v37_apply (e : Fin 650000) (k : Fin 128) :
    val_main_v37 (F := Ideal) x0 x1 x2 (ix2 e k)
      = val_main_v4 (F := Ideal) x0 x2 (ix2 (rowOf (N := 50000) nodes_pos (val_main_v36 (F := Ideal) x1) e) k) := by
  unfold val_main_v37
  rw [gatherRow128_dims]
  exact rowGather_apply nodes_pos _ _ _ e k

/-! ### Layout operations on literal indices -/

theorem idx83 (e : Fin 650000) (q : Fin 64) : idx_main_v82 (idx_main_v83 (ix2 e q)) = ix1 e := by
  funext a; match a with | ⟨0, _⟩ => rfl
theorem idx39 (e : Fin 650000) (k : Fin 128) : idx_main_v38 (idx_main_v39 (ix2 e k)) = ix1 e := by
  funext a; match a with | ⟨0, _⟩ => rfl
theorem idx89 (p : Fin 50000) (q : Fin 64) : idx_main_v88 (idx_main_v89 (ix2 p q)) = ix1 q := by
  funext a; match a with | ⟨0, _⟩ => rfl
theorem idx45 (p : Fin 50000) (k : Fin 128) : idx_main_v44 (idx_main_v45 (ix2 p k)) = ix1 k := by
  funext a; match a with | ⟨0, _⟩ => rfl

theorem v87_apply (p : Fin 50000) (q : Fin 64) :
    val_main_v87 (F := Ideal) x0 x1 x2 x3 x4 (ix2 p q)
      = 0 + ∑ e ∈ incoming (val_main_v86 (F := Ideal) x1) p,
          val_main_v48 (F := Ideal) x0 x1 x2 x3 x4 (ix2 (rowOf (N := 50000) nodes_pos (val_main_v80 (F := Ideal) x1) e) q)
            * (val_main_v59 (F := Ideal) x1 (ix1 (rowOf (N := 50000) nodes_pos (val_main_v65 (F := Ideal) x1) e))
                * val_main_v59 (F := Ideal) x1 (ix1 (rowOf (N := 50000) nodes_pos (val_main_v72 (F := Ideal) x1) e))) := by
  rw [val_main_v87, Host.scatterAdd, scatterRow64_dims, Ideal.hostScatterAdd_def, rowScatterAdd_apply,
    val_main_v85_apply, val_main_cst_19_apply, Ideal.ofBits_def, Ideal.ofBits_zero_f32, incoming]
  refine congrArg _ ?_
  refine Finset.sum_congr rfl fun e _ => ?_
  rw [val_main_v84_apply, val_main_v83_apply, val_main_v82_apply, idx83, val_main_v74_apply, v66_apply, v73_apply, v81_apply,
    Ideal.mulf_def, Ideal.mulf_def]

/-- FIRST LAYER: the scatter-add at `(p, k)` is the sum, over the edges landing on `p`, of the gathered feature times the
    edge weight. -/
theorem v43_apply (p : Fin 50000) (k : Fin 128) :
    val_main_v43 (F := Ideal) x0 x1 x2 (ix2 p k)
      = 0 + ∑ e ∈ incoming (val_main_v42 (F := Ideal) x1) p,
          val_main_v4 (F := Ideal) x0 x2 (ix2 (rowOf (N := 50000) nodes_pos (val_main_v36 (F := Ideal) x1) e) k)
            * (val_main_v15 (F := Ideal) x1 (ix1 (rowOf (N := 50000) nodes_pos (val_main_v21 (F := Ideal) x1) e))
                * val_main_v15 (F := Ideal) x1 (ix1 (rowOf (N := 50000) nodes_pos (val_main_v28 (F := Ideal) x1) e))) := by
  rw [val_main_v43, Host.scatterAdd, scatterRow128_dims, Ideal.hostScatterAdd_def, rowScatterAdd_apply,
    val_main_v41_apply, val_main_cst_8_apply, Ideal.ofBits_def, Ideal.ofBits_zero_f32, incoming]
  refine congrArg _ ?_
  refine Finset.sum_congr rfl fun e _ => ?_
  rw [val_main_v40_apply, val_main_v39_apply, val_main_v38_apply, idx39, val_main_v30_apply, v22_apply, v29_apply, v37_apply,
    Ideal.mulf_def, Ideal.mulf_def]

/-! ### The two matrix products, the rectifier and the biases -/

theorem lidx4 (p : Fin 50000) (j k : Fin 128) : lidx_main_v4 (ix2 p j) k = ix2 p k := by
  funext a; match a with | ⟨0, _⟩ => rfl | ⟨1, _⟩ => rfl
theorem ridx4 (p : Fin 50000) (j k : Fin 128) : ridx_main_v4 (ix2 p j) k = ix2 k j := by
  funext a; match a with | ⟨0, _⟩ => rfl | ⟨1, _⟩ => rfl
theorem lidx48 (p : Fin 50000) (q : Fin 64) (k : Fin 128) : lidx_main_v48 (ix2 p q) k = ix2 p k := by
  funext a; match a with | ⟨0, _⟩ => rfl | ⟨1, _⟩ => rfl
theorem ridx48 (p : Fin 50000) (q : Fin 64) (k : Fin 128) : ridx_main_v48 (ix2 p q) k = ix2 k q := by
  funext a; match a with | ⟨0, _⟩ => rfl | ⟨1, _⟩ => rfl

/-- The first product is `x · W₁`. -/
theorem v4_eq : val_main_v4 (F := Ideal) x0 x2 = matmul (N := 50000) (K := 128) (C := 128) x0 x2 := by
  funext i
  obtain ⟨p, j, rfl⟩ : ∃ (p : Fin 50000) (j : Fin 128), i = ix2 p j := ⟨i 0, i 1, eq_ix2 i⟩
  rw [val_main_v4_apply]
  show _ = ∑ k : Fin 128, x0 (ix2 p k) * x2 (ix2 k j)
  refine Finset.sum_congr rfl fun k _ => ?_
  rw [lidx4, ridx4]

/-- The rectified features times `w`, read at `(p, q)`. -/
theorem rectifiedTimes_apply {N H C : Nat} (a : Fin N → Fin H → EReal) (w : Mat H C) (p : Fin N) (q : Fin C) :
    rectifiedTimes a w (ix2 p q) = ∑ k : Fin H, max (a p k) 0 * w (ix2 k q) := rfl

/-- THE FIRST LAYER before the rectifier is the per-edge layer on `x · W₁` with bias `b₁`. -/
theorem v46_layer (p : Fin 50000) (k : Fin 128) :
    val_main_v46 (F := Ideal) x0 x1 x2 x3 (ix2 p k)
      = layerPerEdgeAt (N := 50000) (E := 650000) (C := 128) nodes_pos (matmul (N := 50000) (K := 128) (C := 128) x0 x2)
          (val_main_v15 (F := Ideal) x1) (val_main_v21 (F := Ideal) x1) (val_main_v10 (F := Ideal) x1)
          (val_main_v28 (F := Ideal) x1) (fun k => x3 (ix1 k)) p k := by
  rw [val_main_v46_apply, v43_apply, val_main_v45_apply, val_main_v44_apply, idx45, Ideal.addf_def, v42_eq, v36_eq, v4_eq,
    layerPerEdgeAt]

/-- The second product is the rectified first layer times `W₂`. -/
theorem v48_eq :
    val_main_v48 (F := Ideal) x0 x1 x2 x3 x4
      = rectifiedTimes (N := 50000) (H := 128) (C := 64)
          (layerPerEdgeAt (N := 50000) (E := 650000) (C := 128) nodes_pos (matmul (N := 50000) (K := 128) (C := 128) x0 x2)
            (val_main_v15 (F := Ideal) x1) (val_main_v21 (F := Ideal) x1) (val_main_v10 (F := Ideal) x1)
            (val_main_v28 (F := Ideal) x1) (fun k => x3 (ix1 k))) x4 := by
  funext i
  obtain ⟨p, q, rfl⟩ : ∃ (p : Fin 50000) (q : Fin 64), i = ix2 p q := ⟨i 0, i 1, eq_ix2 i⟩
  rw [val_main_v48_apply, rectifiedTimes_apply]
  refine Finset.sum_congr rfl fun k _ => ?_
  rw [lidx48, ridx48, val_main_v47_apply, val_main_call1_v0_apply, val_main_call1_cst_apply, Ideal.ofBits_def,
    Ideal.ofBits_zero_f32, Ideal.maximumf_def, v46_layer]

end Reads

/-! ## The reference's result -/

/-- THE REFERENCE'S RESULT at `(p, q)` is the two-layer network in the per-edge form, on the degree vector, the wrapped source
    column, the raw target column and the wrapped target column that its first layer computes. -/
theorem result_apply (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (p : Fin 50000) (q : Fin 64) :
    val_main_v90 (F := Ideal) x0 x1 x2 x3 x4 x5 (ix2 p q)
      = Cert.GraphConv.twoLayerPerEdge (N := 50000) (E := 650000) (K := 128) (H := 128) (C := 64) (by decide) x0 x2 (fun k => x3 (ix1 k)) x4 (fun k => x5 (ix1 k))
          (val_main_v15 (F := Ideal) x1) (val_main_v21 (F := Ideal) x1) (val_main_v10 (F := Ideal) x1) (val_main_v28 (F := Ideal) x1) p q := by
  rw [val_main_v90_apply, v87_apply, val_main_v89_apply, val_main_v88_apply, idx89, Ideal.addf_def,
    v86_eq, v80_eq, v65_eq, v72_eq, v59_eq, v48_eq, twoLayerPerEdge, layerPerEdgeAt]

end Cert.ReferenceIdeal.RefValue

end
-- ==== Proof.Bridge.lean ====
/-
  The kernel program's result and the reference's are the same function of the arguments.

  Both programs compute the word columns and the guarded inverse-root degree by the same host operations on the edge-index
  argument, so those are equal term for term. The kernel's result is then the two-layer network with both layers factored,
  the reference's the same network with per-edge weights, over the same words and the same scaling factor; and the two
  forms agree (`twoLayer_eq`) because the factor is nonnegative and finite and an edge landing on a node has that node as
  its wrapped target.
-/
import proofs.«171738_j23192823399146_2_alg».proof.Proof.KernelValue
import proofs.«171738_j23192823399146_2_alg».proof.Proof.RefValue

set_option maxRecDepth 16384

noncomputable section

namespace Cert.Bridge

open Idealize.ShloMosaic Idealize.ShloMosaic.TcCoe Idealize.SL.Sem Idealize.ShloMosaic.ValueIdx Cert.GraphConv

/-! ## The shared host chains are the same terms in the two programs -/

section SameChains
variable {F : FTy → Type} [FloatOps F] (x1 : IVec ⟨2, ![2, 600000]⟩ 32)

/-- The wrapped source words. -/
theorem src_eq : Cert.KernelIdeal.HostValue.wrapCol (Cert.KernelIdeal.HostValue.srcWords x1)
    = Cert.ReferenceIdeal.ReadP.val_main_v21 (F := F) x1 := rfl
/-- The target words as they are. -/
theorem tgt_eq : Cert.KernelIdeal.HostValue.rawCol (Cert.KernelIdeal.HostValue.tgtWords x1)
    = Cert.ReferenceIdeal.ReadP.val_main_v10 (F := F) x1 := rfl
/-- The wrapped target words. -/
theorem tgtw_eq : Cert.KernelIdeal.HostValue.wrapCol (Cert.KernelIdeal.HostValue.tgtWords x1)
    = Cert.ReferenceIdeal.ReadP.val_main_v28 (F := F) x1 := rfl
/-- The guarded inverse-root degree. -/
theorem invSqrtDeg_eq : Cert.KernelIdeal.HostValue.invSqrtDeg (F := F) x1
    = Cert.ReferenceIdeal.ReadP.val_main_v15 (F := F) x1 := rfl

end SameChains

/-! ## The two networks agree -/

/-- At every index the factored network over the kernel's chains is the per-edge network over the reference's. -/
theorem networks_eq (x0 : Mat 50000 128) (x1 : IVec ⟨2, ![2, 600000]⟩ 32) (x2 : Mat 128 128) (x3 : Vect 128) (x4 : Mat 128 64)
    (x5 : Vect 64) (p : Fin 50000) (q : Fin 64) :
    twoLayerFactored Cert.KernelIdeal.HostValue.hN x0 x2 (fun k => x3 (ix1 k)) x4 (fun k => x5 (ix1 k))
        (Cert.KernelIdeal.HostValue.invSqrtDeg (F := Ideal) x1)
        (Cert.KernelIdeal.HostValue.wrapCol (Cert.KernelIdeal.HostValue.srcWords x1))
        (Cert.KernelIdeal.HostValue.rawCol (Cert.KernelIdeal.HostValue.tgtWords x1)) p q
      = twoLayerPerEdge (N := 50000) (E := 650000) (K := 128) (H := 128) (C := 64) (by decide) x0 x2 (fun k => x3 (ix1 k)) x4 (fun k => x5 (ix1 k))
          (Cert.ReferenceIdeal.ReadP.val_main_v15 (F := Ideal) x1) (Cert.ReferenceIdeal.ReadP.val_main_v21 (F := Ideal) x1)
          (Cert.ReferenceIdeal.ReadP.val_main_v10 (F := Ideal) x1) (Cert.ReferenceIdeal.ReadP.val_main_v28 (F := Ideal) x1) p q := by
  rw [← invSqrtDeg_eq (F := Ideal) x1, ← src_eq (F := Ideal) x1, ← tgt_eq (F := Ideal) x1, ← tgtw_eq (F := Ideal) x1]
  exact twoLayer_eq Cert.KernelIdeal.HostValue.hN x0 x2 _ x4 _ _ _ _ _
    (fun p' => Cert.KernelIdeal.HostValue.invSqrtDeg_nonneg_finite x1 p')
    (fun e p' h => Cert.KernelIdeal.HostValue.wrapped_of_landing (Cert.KernelIdeal.HostValue.tgtWords x1) e p' h) p q

end Cert.Bridge

end
-- ==== Proof.lean ====
/-
  The kernel — three grid kernels with gathers and scatter-adds between them — computes the same two-layer graph convolution
  as the jnp reference, on the extended reals.

  Both programs read the edges' source and target words off the edge-index argument (the given edges, then one self-loop
  per node), count each node's degree by a scatter-add of ones, and take `d = where(degree > 0, rsqrt degree, 0)`. The
  reference multiplies each gathered row of `x · W` by the edge weight `d[source] · d[target]` and sums the rows into their
  targets. The kernel scales row `p'` of `x · W` by `d[p']` inside its first kernel, sums the gathered rows, and scales the
  sum at node `p` by `d[p]` inside the next kernel. An edge summed into `p` has target `p`, multiplication is associative,
  and `d[p]` — nonnegative and never infinite, whatever the degree — moves across the sum on the extended reals with no
  finiteness needed of the terms; so the two agree, layer by layer (Proof/Spec.lean `twoLayer_eq`). The precondition is
  never opened.

  The three frames are the generated ones (the reference's is its generated run with the result dropped); the ideal pass
  rewrote nothing, so `preserves` is trivial; `algebraic` pairs the kernel's run with its result named (Proof/KernelRun.lean,
  Proof/KernelValue.lean) with the reference's run (Proof/RefRunP.lean, Proof/RefValue.lean) through Proof/Bridge.lean.
-/
import proofs.«171738_j23192823399146_2_alg».proof.Defs
import proofs.«171738_j23192823399146_2_alg».proof.Proof.Gen.Kernel
import proofs.«171738_j23192823399146_2_alg».proof.Proof.Gen.Kernel.Skeleton
import proofs.«171738_j23192823399146_2_alg».proof.Proof.Gen.Kernel.Launch
import proofs.«171738_j23192823399146_2_alg».proof.Proof.Gen.Kernel.Points
import proofs.«171738_j23192823399146_2_alg».proof.Proof.Gen.Kernel.Frame
import proofs.«171738_j23192823399146_2_alg».proof.Proof.Gen.KernelIdeal
import proofs.«171738_j23192823399146_2_alg».proof.Proof.Gen.KernelIdeal.Skeleton
import proofs.«171738_j23192823399146_2_alg».proof.Proof.Gen.KernelIdeal.Launch
import proofs.«171738_j23192823399146_2_alg».proof.Proof.Gen.KernelIdeal.Points
import proofs.«171738_j23192823399146_2_alg».proof.Proof.Gen.KernelIdeal.Frame
import proofs.«171738_j23192823399146_2_alg».proof.Proof.Gen.ReferenceIdeal
import proofs.«171738_j23192823399146_2_alg».proof.Proof.RefRunP
import proofs.«171738_j23192823399146_2_alg».proof.Proof.RefReadP
import proofs.«171738_j23192823399146_2_alg».proof.Proof.Gen.Pre_finite_inputs
import proofs.«171738_j23192823399146_2_alg».proof.Proof.KernelRun
import proofs.«171738_j23192823399146_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments unchanged: the generated frame. -/
theorem frame_kernel : Cert.frame_Kernel := fun m ρ _ => Cert.Kernel.Gen.frame m ρ
/-- So does its idealization. -/
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)
/-- The ideal pass rewrote no operation. -/
theorem preserves : Cert.preserves_Kernel_KernelIdeal := trivial

/-- From memories agreeing on the arguments, the idealized kernel and the idealized reference end with the same result
    array: at every index, the factored two-layer network and the per-edge one. -/
theorem algebraic : Cert.algebraic_KernelIdeal_ReferenceIdeal := by
  intro m ρ m' ρ' _ hagree
  refine ⟨fun c => (Cert.KernelIdeal.Gen.dat2 (F := Ideal) (Cert.KernelIdeal.Gen.V7 m ρ) c).arrAt 3 Cert.KernelIdeal.cfg2.N,
    Cert.KernelIdeal.Run.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v90_eq, (hagree c).1, (hagree c).2.1, (hagree c).2.2.1, (hagree c).2.2.2.1,
    (hagree c).2.2.2.2.1, (hagree c).2.2.2.2.2]
  funext i
  obtain ⟨p, q, rfl⟩ : ∃ (p : Fin 50000) (q : Fin 64), i = ix2 p q := ⟨i 0, i 1, eq_ix2 i⟩
  rw [Cert.ReferenceIdeal.RefValue.result_apply]
  exact ((Cert.KernelIdeal.HostValue.result_apply m ρ c p q).trans (Cert.Bridge.networks_eq _ _ _ _ _ _ p q)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
